-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 29
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .bf16⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S1x4096, .f32⟩
  | .hbm, ⟨25, _⟩ => ⟨S8192x1024, .bf16⟩
  | .hbm, ⟨26, _⟩ => ⟨S8192x1024, .bf16⟩
  | .hbm, ⟨27, _⟩ => ⟨S8192x1024, .f32⟩
  | .hbm, ⟨28, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S2048x1024_S1024x1024_1024_0 : S2048x1024.Slices ![1024, 0] S1024x1024
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v14) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.RegionBits.lean ====
/-
  The run of the LSTM-cell program around its one kernel call, at any float instance.

  The program first lays out the call's operands on the host (the four gate weight matrices cut into their
  input-rows half and their hidden-rows half, each half's four gates set side by side as a 1024 × 4096 matrix;
  the four bias vectors joined into one row of 4096; the activations narrowed), then calls the kernel once per
  tile of 256 batch rows (32 tiles). This module says what every buffer holds when the call is entered
  (`entry`), what tile of its array each operand window shows the body at a grid point (`tile`), what the body
  leaves in the two result windows' buffers as a function of the six input tiles (`hiddenTile`, `cellTile`),
  and runs the whole program: it terminates without a fault, each result array ends at the tiles the body wrote
  back, and every other array ends as the call found it — in particular the eleven arguments as launched.
-/
import proofs.«173777_j85358180041592_1_alg».proof.Proof.Gen.Kernel.Launch
import proofs.«173777_j85358180041592_1_alg».proof.Proof.Gen.Kernel.Skeleton
import proofs.«173777_j85358180041592_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- What core `c`'s buffers hold when the kernel call is entered: the launch contents after the sixteen host
    lines that cut, join and narrow the operands. -/
abbrev entry (c : Dev nD) (b : Ref sig .tc) : Buf (Elt F) ((c : Thread nD τ).loc b) :=
  StableHlo.after hostOps0 (fun b => m (c, b)) b

/-- Those lines allocate no buffer. -/
theorem prefix_allocates_nothing : (hostOps0 : List (HloOp τ sig (Elt F))).Forall fun op => op.fresh = ∅ := by
  simp only [List.Forall]; repeat' constructor

/-- The program is those lines followed by the call, so the call is entered at `entry`. -/
theorem main_reaches_call (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_allocates_nothing main_chain

/-- No host line before the call writes argument 0: the call finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 1: the call finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 2: the call finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 3: the call finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 4: the call finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 5: the call finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 6: the call finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 7: the call finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 8: the call finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 9: the call finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 10: the call finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The tiles the windows show -/

/-- Window `w`'s tile at grid point `t`, read off its array as the call finds it: rows 256·t … 256·t + 255 of the
    three activation arrays and of the two results, the whole of the two weight halves and of the bias row. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its tile at every point, fetched there or not (an unfetched
    window's tile index has not moved since the point that fetched it). -/
theorem held0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's current staging buffer holds its tile at every point, fetched there or not (an unfetched
    window's tile index has not moved since the point that fetched it). -/
theorem held1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's current staging buffer holds its tile at every point, fetched there or not (an unfetched
    window's tile index has not moved since the point that fetched it). -/
theorem held2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's current staging buffer holds its tile at every point, fetched there or not (an unfetched
    window's tile index has not moved since the point that fetched it). -/
theorem held3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's current staging buffer holds its tile at every point, fetched there or not (an unfetched
    window's tile index has not moved since the point that fetched it). -/
theorem held4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's current staging buffer holds its tile at every point, fetched there or not (an unfetched
    window's tile index has not moved since the point that fetched it). -/
theorem held5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

/-! ## The arguments end as launched -/

/-- From a run to the pipeline's post — every operand array at what the write-backs left, every other buffer as
    the call found it — the eleven arguments end as launched: the cell state is an operand the body only reads,
    the ten others are touched by nobody. -/
theorem args_kept (dats : (p : Fin 1) → (c : Dev nD) → Dat τ (Elt F) Unit ℕ (UR sig nD τ) ℕ (cfgs p) c)
    (hA : ∀ c w, (dats 0 c).A w = entry m c (Pipeline.arrRef spec0 w))
    {r : PUnit × MemSt nD τ sig (Elt F)} (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (entry_arg0 m c),
    ((h c).2 main_arg1 (Pipeline.mem_restRefs_of main_arg1 (by decide) (by decide))).trans (entry_arg1 m c),
    ((h c).1 2).trans (((dats 0 c).arrAt_in 2 rfl _).trans ((hA c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c)⟩

/-! ## What the body reads and writes -/

/-- The whole 256 × 1024 staging buffer of an activation or result window, -/
abbrev allRows : Rect S256x1024 := Rect.unit (s := S256x1024) ![0, 0] S256x1024.size inb_S256x1024_S256x1024_0_0
/-- the whole 1024 × 4096 buffer of a weight half, -/
abbrev allWeights : Rect S1024x4096 := Rect.unit (s := S1024x4096) ![0, 0] S1024x4096.size inb_S1024x4096_S1024x4096_0_0
/-- and the whole bias row. -/
abbrev allBias : Rect S1x4096 := Rect.unit (s := S1x4096) ![0, 0] S1x4096.size inb_S1x4096_S1x4096_0_0

/-- The new hidden state's buffer after the body, from the six input tiles (input rows, hidden rows, cell rows,
    the two weight halves, the bias row): its one store, of the whole buffer. -/
def hiddenTile (x h : Vec F S256x1024 .bf16) (cs : Vec F S256x1024 .f32) (wx wh : Vec F S1024x4096 .bf16) (b : Vec F S1x4096 .f32) :
    Vec F S256x1024 .f32 :=
  View.canon [⟨allRows, k0_pay3 (View.ld x allRows) (View.ld h allRows) (View.ld wx allWeights) (View.ld wh allWeights) (View.ld b allBias) (View.ld cs allRows)⟩]

/-- The new cell state's buffer after the body, likewise. -/
def cellTile (x h : Vec F S256x1024 .bf16) (cs : Vec F S256x1024 .f32) (wx wh : Vec F S1024x4096 .bf16) (b : Vec F S1x4096 .f32) :
    Vec F S256x1024 .f32 :=
  View.canon [⟨allRows, k0_pay2 (View.ld x allRows) (View.ld h allRows) (View.ld wx allWeights) (View.ld wh allWeights) (View.ld b allBias) (View.ld cs allRows)⟩]

/-- A store of the whole buffer covers it. -/
theorem whole_store_covers (p0 : Vec F S256x1024 .f32) (y : S256x1024.Idx) :
    ∃ pc ∈ ([⟨allRows, p0⟩] : List (View.Piece (Elt F) S256x1024 .f32)), y ∈ pc.1.set :=
  View.cover_of_tiled [⟨allRows, p0⟩] S256x1024.size (by rfl) y

/-! ## The body -/

set_option maxHeartbeats 1000000 in
/-- The kernel body on whole staging buffers — the six inputs' at contents `x h cs wx wh b`, the two results' at
    anything — runs to its end without a fault, leaving the inputs' as they were and the results' at `hiddenTile`
    and `cellTile` of the inputs (it also reads the result buffers before overwriting them; what it reads there
    it never uses). -/
theorem body_runs (c : Dev nD) (E : Set ℕ) (i : grid0.Coords)
    (arg1 : Memref sig .tc .vmem S256x1024 .bf16) (harg1 : arg1.IsWhole) (arg2 : Memref sig .tc .vmem S256x1024 .bf16) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h : Vec F S256x1024 .bf16) (cs : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cs
            ∗ owns (c : Thread nD τ) arg4 fullShare wx ∗ owns (c : Thread nD τ) arg5 fullShare wh ∗ owns (c : Thread nD τ) arg6 fullShare b
            ∗ owns (c : Thread nD τ) arg7 fullShare (hiddenTile x h cs wx wh b) ∗ owns (c : Thread nD τ) arg8 fullShare (cellTile x h cs wx wh b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (whole_store_covers _)
  iexists _; isplitr
  swap; · iexact H8
  ipureintro
  exact View.read_writes_eq_canon _ _ _ (whole_store_covers _)

/-! ## The pipeline's bookkeeping -/

/-- What the pipeline is told of the body, per core: the operand arrays are the entry contents; after the body
    at point `t` each input buffer still holds its tile and the two result buffers hold `hiddenTile` and `cellTile`
    of the six input tiles; the body uses nothing else; nothing is owed; whole shares. -/
def book (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => hiddenTile (tile m c 0 t) (tile m c 1 t) (tile m c 2 t) (tile m c 3 t) (tile m c 4 t) (tile m c 5 t)
    | ⟨7, _⟩ => cellTile (tile m c 0 t) (tile m c 1 t) (tile m c 2 t) (tile m c 3 t) (tile m c 4 t) (tile m c 5 t)
  Φ _ := Pipeline.ΦA spec0 c
  q _ := fullShare
  owed _ := 0

theorem book_A (c : Dev nD) (w : Fin cfg0.W) : (book m 0 c).A w = entry m c (Pipeline.arrRef spec0 w) := by
  dsimp only [book]

theorem after_0 (c : Dev nD) (t : Fin cfg0.N) : (book m 0 c).after 0 t = tile m c 0 t := by dsimp only [book]
theorem after_1 (c : Dev nD) (t : Fin cfg0.N) : (book m 0 c).after 1 t = tile m c 1 t := by dsimp only [book]
theorem after_2 (c : Dev nD) (t : Fin cfg0.N) : (book m 0 c).after 2 t = tile m c 2 t := by dsimp only [book]
theorem after_3 (c : Dev nD) (t : Fin cfg0.N) : (book m 0 c).after 3 t = tile m c 3 t := by dsimp only [book]
theorem after_4 (c : Dev nD) (t : Fin cfg0.N) : (book m 0 c).after 4 t = tile m c 4 t := by dsimp only [book]
theorem after_5 (c : Dev nD) (t : Fin cfg0.N) : (book m 0 c).after 5 t = tile m c 5 t := by dsimp only [book]
/-- The new hidden state's buffer after point `t`. -/
theorem after_6 (c : Dev nD) (t : Fin cfg0.N) : (book m 0 c).after 6 t
    = hiddenTile (tile m c 0 t) (tile m c 1 t) (tile m c 2 t) (tile m c 3 t) (tile m c 4 t) (tile m c 5 t) := by dsimp only [book]
/-- The new cell state's buffer after point `t`. -/
theorem after_7 (c : Dev nD) (t : Fin cfg0.N) : (book m 0 c).after 7 t
    = cellTile (tile m c 0 t) (tile m c 1 t) (tile m c 2 t) (tile m c 3 t) (tile m c 4 t) (tile m c 5 t) := by dsimp only [book]

theorem held0 (c : Dev nD) (t : Fin cfg0.N) (d) : (book m 0 c).before 0 t d = tile m c 0 t := held0_of m (book m 0 c) (book_A m c 0) (after_0 m c) t d
theorem held1 (c : Dev nD) (t : Fin cfg0.N) (d) : (book m 0 c).before 1 t d = tile m c 1 t := held1_of m (book m 0 c) (book_A m c 1) (after_1 m c) t d
theorem held2 (c : Dev nD) (t : Fin cfg0.N) (d) : (book m 0 c).before 2 t d = tile m c 2 t := held2_of m (book m 0 c) (book_A m c 2) (after_2 m c) t d
theorem held3 (c : Dev nD) (t : Fin cfg0.N) (d) : (book m 0 c).before 3 t d = tile m c 3 t := held3_of m (book m 0 c) (book_A m c 3) (after_3 m c) t d
theorem held4 (c : Dev nD) (t : Fin cfg0.N) (d) : (book m 0 c).before 4 t d = tile m c 4 t := held4_of m (book m 0 c) (book_A m c 4) (after_4 m c) t d
theorem held5 (c : Dev nD) (t : Fin cfg0.N) (d) : (book m 0 c).before 5 t d = tile m c 5 t := held5_of m (book m 0 c) (book_A m c 5) (after_5 m c) t d

/-! ## The body at a grid point -/

/-- What the body is called with at point `t`: the eight windows' current staging buffers, one by one, -/
def callPre (c : Dev nD) (t : Fin cfg0.N) : sProp 𝕄 :=
  iprop((book m 0 c).Φ t.castSucc ∗ (book m 0 c).owesAt () t.castSucc
    ∗ (∃ d, owns (c : Thread nD τ) (st0_0 t) fullShare ((book m 0 c).before 0 t d))
    ∗ (∃ d, owns (c : Thread nD τ) (st0_1 t) fullShare ((book m 0 c).before 1 t d))
    ∗ (∃ d, owns (c : Thread nD τ) (st0_2 t) fullShare ((book m 0 c).before 2 t d))
    ∗ (∃ d, owns (c : Thread nD τ) (st0_3 t) fullShare ((book m 0 c).before 3 t d))
    ∗ (∃ d, owns (c : Thread nD τ) (st0_4 t) fullShare ((book m 0 c).before 4 t d))
    ∗ (∃ d, owns (c : Thread nD τ) (st0_5 t) fullShare ((book m 0 c).before 5 t d))
    ∗ (∃ d, owns (c : Thread nD τ) (st0_6 t) fullShare ((book m 0 c).before 6 t d))
    ∗ (∃ d, owns (c : Thread nD τ) (st0_7 t) fullShare ((book m 0 c).before 7 t d)))

/-- and what it hands back. -/
def callPost (c : Dev nD) (t : Fin cfg0.N) : sProp 𝕄 :=
  iprop((book m 0 c).Φ t.succ ∗ (book m 0 c).owesAt () t.succ
    ∗ owns (c : Thread nD τ) (st0_0 t) fullShare ((book m 0 c).after 0 t)
    ∗ owns (c : Thread nD τ) (st0_1 t) fullShare ((book m 0 c).after 1 t)
    ∗ owns (c : Thread nD τ) (st0_2 t) fullShare ((book m 0 c).after 2 t)
    ∗ owns (c : Thread nD τ) (st0_3 t) fullShare ((book m 0 c).after 3 t)
    ∗ owns (c : Thread nD τ) (st0_4 t) fullShare ((book m 0 c).after 4 t)
    ∗ owns (c : Thread nD τ) (st0_5 t) fullShare ((book m 0 c).after 5 t)
    ∗ owns (c : Thread nD τ) (st0_6 t) fullShare ((book m 0 c).after 6 t)
    ∗ owns (c : Thread nD τ) (st0_7 t) fullShare ((book m 0 c).after 7 t))

/-- The body at any point: the six input buffers hold their tiles, so `body_runs` applies. -/
theorem call_runs (c : Dev nD) (t : Fin cfg0.N) :
    callPre m c t ⊢ wp frame (wpE (defs₀ (F := F)) Variants.none c none) Set.univ (bodyAt0 t) (fun _ => callPost m c t) := by
  unfold callPre callPost bodyAt0
  simp only [held0, held1, held2, held3, held4, held5]
  rw [show (book m 0 c).Φ t.succ = (book m 0 c).Φ t.castSucc from rfl,
    show (book m 0 c).owesAt () t.succ = (book m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _
    (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation (c : Dev nD) : BodyObligation (book (F := F) m 0 c) (defs₀ (F := F)) Variants.none () Set.univ := fun t => by
  rw [bigSep_W0, bigSep_W0]
  exact call_runs m c t

/-! ## The run -/

set_option backward.isDefEq.respectTransparency.types false in
/-- From any launch memory with zero counters: every weakly fair execution of the program terminates without a
    fault, every operand array of the call ends at what the write-backs left of it, and every other unscoped
    buffer ends as the call found it. -/
theorem run : θ_run defs (onTc (τ := τ) (main (F := F))) (s₀ m ρ) (Pipeline.FramePost cfgs (book m) 0 (entry m)) :=
  Pipeline.θ_run_frame cfgs (book m) (0 : Fin 1) launch0 defs₀ Variants.none m ρ main
    (hbody := fun c => (body_obligation m c).loose) (hshare := fun c => (book m 0 c).share_full fun _ => rfl)
    (howed := fun _ _ => rfl) (V := entry m) (hmain := main_reaches_call m Variants.none) (hA := book_A m) (hΦ := fun _ _ => rfl)

/-- The program runs to its end without a fault and its eleven arguments end as launched. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => args_kept m (book m) (book_A m) h c) (run m ρ)

end Cert.Kernel.Region

end
-- ==== Proof.RegionIdeal.lean ====
/-
  The run of the LSTM-cell program around its one kernel call, at any float instance.

  The program first lays out the call's operands on the host (the four gate weight matrices cut into their
  input-rows half and their hidden-rows half, each half's four gates set side by side as a 1024 × 4096 matrix;
  the four bias vectors joined into one row of 4096; the activations narrowed), then calls the kernel once per
  tile of 256 batch rows (32 tiles). This module says what every buffer holds when the call is entered
  (`entry`), what tile of its array each operand window shows the body at a grid point (`tile`), what the body
  leaves in the two result windows' buffers as a function of the six input tiles (`hiddenTile`, `cellTile`),
  and runs the whole program: it terminates without a fault, each result array ends at the tiles the body wrote
  back, and every other array ends as the call found it — in particular the eleven arguments as launched.
-/
import proofs.«173777_j85358180041592_1_alg».proof.Proof.Gen.KernelIdeal.Launch
import proofs.«173777_j85358180041592_1_alg».proof.Proof.Gen.KernelIdeal.Skeleton
import proofs.«173777_j85358180041592_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- What core `c`'s buffers hold when the kernel call is entered: the launch contents after the sixteen host
    lines that cut, join and narrow the operands. -/
abbrev entry (c : Dev nD) (b : Ref sig .tc) : Buf (Elt F) ((c : Thread nD τ).loc b) :=
  StableHlo.after hostOps0 (fun b => m (c, b)) b

/-- Those lines allocate no buffer. -/
theorem prefix_allocates_nothing : (hostOps0 : List (HloOp τ sig (Elt F))).Forall fun op => op.fresh = ∅ := by
  simp only [List.Forall]; repeat' constructor

/-- The program is those lines followed by the call, so the call is entered at `entry`. -/
theorem main_reaches_call (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_allocates_nothing main_chain

/-- No host line before the call writes argument 0: the call finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 1: the call finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 2: the call finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 3: the call finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 4: the call finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 5: the call finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 6: the call finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 7: the call finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 8: the call finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 9: the call finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the call writes argument 10: the call finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The tiles the windows show -/

/-- Window `w`'s tile at grid point `t`, read off its array as the call finds it: rows 256·t … 256·t + 255 of the
    three activation arrays and of the two results, the whole of the two weight halves and of the bias row. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its tile at every point, fetched there or not (an unfetched
    window's tile index has not moved since the point that fetched it). -/
theorem held0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's current staging buffer holds its tile at every point, fetched there or not (an unfetched
    window's tile index has not moved since the point that fetched it). -/
theorem held1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's current staging buffer holds its tile at every point, fetched there or not (an unfetched
    window's tile index has not moved since the point that fetched it). -/
theorem held2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's current staging buffer holds its tile at every point, fetched there or not (an unfetched
    window's tile index has not moved since the point that fetched it). -/
theorem held3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's current staging buffer holds its tile at every point, fetched there or not (an unfetched
    window's tile index has not moved since the point that fetched it). -/
theorem held4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's current staging buffer holds its tile at every point, fetched there or not (an unfetched
    window's tile index has not moved since the point that fetched it). -/
theorem held5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

/-! ## The arguments end as launched -/

/-- From a run to the pipeline's post — every operand array at what the write-backs left, every other buffer as
    the call found it — the eleven arguments end as launched: the cell state is an operand the body only reads,
    the ten others are touched by nobody. -/
theorem args_kept (dats : (p : Fin 1) → (c : Dev nD) → Dat τ (Elt F) Unit ℕ (UR sig nD τ) ℕ (cfgs p) c)
    (hA : ∀ c w, (dats 0 c).A w = entry m c (Pipeline.arrRef spec0 w))
    {r : PUnit × MemSt nD τ sig (Elt F)} (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (entry_arg0 m c),
    ((h c).2 main_arg1 (Pipeline.mem_restRefs_of main_arg1 (by decide) (by decide))).trans (entry_arg1 m c),
    ((h c).1 2).trans (((dats 0 c).arrAt_in 2 rfl _).trans ((hA c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c)⟩

/-! ## What the body reads and writes -/

/-- The whole 256 × 1024 staging buffer of an activation or result window, -/
abbrev allRows : Rect S256x1024 := Rect.unit (s := S256x1024) ![0, 0] S256x1024.size inb_S256x1024_S256x1024_0_0
/-- the whole 1024 × 4096 buffer of a weight half, -/
abbrev allWeights : Rect S1024x4096 := Rect.unit (s := S1024x4096) ![0, 0] S1024x4096.size inb_S1024x4096_S1024x4096_0_0
/-- and the whole bias row. -/
abbrev allBias : Rect S1x4096 := Rect.unit (s := S1x4096) ![0, 0] S1x4096.size inb_S1x4096_S1x4096_0_0

/-- The new hidden state's buffer after the body, from the six input tiles (input rows, hidden rows, cell rows,
    the two weight halves, the bias row): its one store, of the whole buffer. -/
def hiddenTile (x h : Vec F S256x1024 .bf16) (cs : Vec F S256x1024 .f32) (wx wh : Vec F S1024x4096 .bf16) (b : Vec F S1x4096 .f32) :
    Vec F S256x1024 .f32 :=
  View.canon [⟨allRows, k0_pay3 (View.ld x allRows) (View.ld h allRows) (View.ld wx allWeights) (View.ld wh allWeights) (View.ld b allBias) (View.ld cs allRows)⟩]

/-- The new cell state's buffer after the body, likewise. -/
def cellTile (x h : Vec F S256x1024 .bf16) (cs : Vec F S256x1024 .f32) (wx wh : Vec F S1024x4096 .bf16) (b : Vec F S1x4096 .f32) :
    Vec F S256x1024 .f32 :=
  View.canon [⟨allRows, k0_pay2 (View.ld x allRows) (View.ld h allRows) (View.ld wx allWeights) (View.ld wh allWeights) (View.ld b allBias) (View.ld cs allRows)⟩]

/-- A store of the whole buffer covers it. -/
theorem whole_store_covers (p0 : Vec F S256x1024 .f32) (y : S256x1024.Idx) :
    ∃ pc ∈ ([⟨allRows, p0⟩] : List (View.Piece (Elt F) S256x1024 .f32)), y ∈ pc.1.set :=
  View.cover_of_tiled [⟨allRows, p0⟩] S256x1024.size (by rfl) y

/-! ## The body -/

set_option maxHeartbeats 1000000 in
/-- The kernel body on whole staging buffers — the six inputs' at contents `x h cs wx wh b`, the two results' at
    anything — runs to its end without a fault, leaving the inputs' as they were and the results' at `hiddenTile`
    and `cellTile` of the inputs (it also reads the result buffers before overwriting them; what it reads there
    it never uses). -/
theorem body_runs (c : Dev nD) (E : Set ℕ) (i : grid0.Coords)
    (arg1 : Memref sig .tc .vmem S256x1024 .bf16) (harg1 : arg1.IsWhole) (arg2 : Memref sig .tc .vmem S256x1024 .bf16) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h : Vec F S256x1024 .bf16) (cs : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cs
            ∗ owns (c : Thread nD τ) arg4 fullShare wx ∗ owns (c : Thread nD τ) arg5 fullShare wh ∗ owns (c : Thread nD τ) arg6 fullShare b
            ∗ owns (c : Thread nD τ) arg7 fullShare (hiddenTile x h cs wx wh b) ∗ owns (c : Thread nD τ) arg8 fullShare (cellTile x h cs wx wh b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (whole_store_covers _)
  iexists _; isplitr
  swap; · iexact H8
  ipureintro
  exact View.read_writes_eq_canon _ _ _ (whole_store_covers _)

/-! ## The pipeline's bookkeeping -/

/-- What the pipeline is told of the body, per core: the operand arrays are the entry contents; after the body
    at point `t` each input buffer still holds its tile and the two result buffers hold `hiddenTile` and `cellTile`
    of the six input tiles; the body uses nothing else; nothing is owed; whole shares. -/
def book (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => hiddenTile (tile m c 0 t) (tile m c 1 t) (tile m c 2 t) (tile m c 3 t) (tile m c 4 t) (tile m c 5 t)
    | ⟨7, _⟩ => cellTile (tile m c 0 t) (tile m c 1 t) (tile m c 2 t) (tile m c 3 t) (tile m c 4 t) (tile m c 5 t)
  Φ _ := Pipeline.ΦA spec0 c
  q _ := fullShare
  owed _ := 0

theorem book_A (c : Dev nD) (w : Fin cfg0.W) : (book m 0 c).A w = entry m c (Pipeline.arrRef spec0 w) := by
  dsimp only [book]

theorem after_0 (c : Dev nD) (t : Fin cfg0.N) : (book m 0 c).after 0 t = tile m c 0 t := by dsimp only [book]
theorem after_1 (c : Dev nD) (t : Fin cfg0.N) : (book m 0 c).after 1 t = tile m c 1 t := by dsimp only [book]
theorem after_2 (c : Dev nD) (t : Fin cfg0.N) : (book m 0 c).after 2 t = tile m c 2 t := by dsimp only [book]
theorem after_3 (c : Dev nD) (t : Fin cfg0.N) : (book m 0 c).after 3 t = tile m c 3 t := by dsimp only [book]
theorem after_4 (c : Dev nD) (t : Fin cfg0.N) : (book m 0 c).after 4 t = tile m c 4 t := by dsimp only [book]
theorem after_5 (c : Dev nD) (t : Fin cfg0.N) : (book m 0 c).after 5 t = tile m c 5 t := by dsimp only [book]
/-- The new hidden state's buffer after point `t`. -/
theorem after_6 (c : Dev nD) (t : Fin cfg0.N) : (book m 0 c).after 6 t
    = hiddenTile (tile m c 0 t) (tile m c 1 t) (tile m c 2 t) (tile m c 3 t) (tile m c 4 t) (tile m c 5 t) := by dsimp only [book]
/-- The new cell state's buffer after point `t`. -/
theorem after_7 (c : Dev nD) (t : Fin cfg0.N) : (book m 0 c).after 7 t
    = cellTile (tile m c 0 t) (tile m c 1 t) (tile m c 2 t) (tile m c 3 t) (tile m c 4 t) (tile m c 5 t) := by dsimp only [book]

theorem held0 (c : Dev nD) (t : Fin cfg0.N) (d) : (book m 0 c).before 0 t d = tile m c 0 t := held0_of m (book m 0 c) (book_A m c 0) (after_0 m c) t d
theorem held1 (c : Dev nD) (t : Fin cfg0.N) (d) : (book m 0 c).before 1 t d = tile m c 1 t := held1_of m (book m 0 c) (book_A m c 1) (after_1 m c) t d
theorem held2 (c : Dev nD) (t : Fin cfg0.N) (d) : (book m 0 c).before 2 t d = tile m c 2 t := held2_of m (book m 0 c) (book_A m c 2) (after_2 m c) t d
theorem held3 (c : Dev nD) (t : Fin cfg0.N) (d) : (book m 0 c).before 3 t d = tile m c 3 t := held3_of m (book m 0 c) (book_A m c 3) (after_3 m c) t d
theorem held4 (c : Dev nD) (t : Fin cfg0.N) (d) : (book m 0 c).before 4 t d = tile m c 4 t := held4_of m (book m 0 c) (book_A m c 4) (after_4 m c) t d
theorem held5 (c : Dev nD) (t : Fin cfg0.N) (d) : (book m 0 c).before 5 t d = tile m c 5 t := held5_of m (book m 0 c) (book_A m c 5) (after_5 m c) t d

/-! ## The body at a grid point -/

/-- What the body is called with at point `t`: the eight windows' current staging buffers, one by one, -/
def callPre (c : Dev nD) (t : Fin cfg0.N) : sProp 𝕄 :=
  iprop((book m 0 c).Φ t.castSucc ∗ (book m 0 c).owesAt () t.castSucc
    ∗ (∃ d, owns (c : Thread nD τ) (st0_0 t) fullShare ((book m 0 c).before 0 t d))
    ∗ (∃ d, owns (c : Thread nD τ) (st0_1 t) fullShare ((book m 0 c).before 1 t d))
    ∗ (∃ d, owns (c : Thread nD τ) (st0_2 t) fullShare ((book m 0 c).before 2 t d))
    ∗ (∃ d, owns (c : Thread nD τ) (st0_3 t) fullShare ((book m 0 c).before 3 t d))
    ∗ (∃ d, owns (c : Thread nD τ) (st0_4 t) fullShare ((book m 0 c).before 4 t d))
    ∗ (∃ d, owns (c : Thread nD τ) (st0_5 t) fullShare ((book m 0 c).before 5 t d))
    ∗ (∃ d, owns (c : Thread nD τ) (st0_6 t) fullShare ((book m 0 c).before 6 t d))
    ∗ (∃ d, owns (c : Thread nD τ) (st0_7 t) fullShare ((book m 0 c).before 7 t d)))

/-- and what it hands back. -/
def callPost (c : Dev nD) (t : Fin cfg0.N) : sProp 𝕄 :=
  iprop((book m 0 c).Φ t.succ ∗ (book m 0 c).owesAt () t.succ
    ∗ owns (c : Thread nD τ) (st0_0 t) fullShare ((book m 0 c).after 0 t)
    ∗ owns (c : Thread nD τ) (st0_1 t) fullShare ((book m 0 c).after 1 t)
    ∗ owns (c : Thread nD τ) (st0_2 t) fullShare ((book m 0 c).after 2 t)
    ∗ owns (c : Thread nD τ) (st0_3 t) fullShare ((book m 0 c).after 3 t)
    ∗ owns (c : Thread nD τ) (st0_4 t) fullShare ((book m 0 c).after 4 t)
    ∗ owns (c : Thread nD τ) (st0_5 t) fullShare ((book m 0 c).after 5 t)
    ∗ owns (c : Thread nD τ) (st0_6 t) fullShare ((book m 0 c).after 6 t)
    ∗ owns (c : Thread nD τ) (st0_7 t) fullShare ((book m 0 c).after 7 t))

/-- The body at any point: the six input buffers hold their tiles, so `body_runs` applies. -/
theorem call_runs (c : Dev nD) (t : Fin cfg0.N) :
    callPre m c t ⊢ wp frame (wpE (defs₀ (F := F)) Variants.none c none) Set.univ (bodyAt0 t) (fun _ => callPost m c t) := by
  unfold callPre callPost bodyAt0
  simp only [held0, held1, held2, held3, held4, held5]
  rw [show (book m 0 c).Φ t.succ = (book m 0 c).Φ t.castSucc from rfl,
    show (book m 0 c).owesAt () t.succ = (book m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _
    (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation (c : Dev nD) : BodyObligation (book (F := F) m 0 c) (defs₀ (F := F)) Variants.none () Set.univ := fun t => by
  rw [bigSep_W0, bigSep_W0]
  exact call_runs m c t

/-! ## The run -/

set_option backward.isDefEq.respectTransparency.types false in
/-- From any launch memory with zero counters: every weakly fair execution of the program terminates without a
    fault, every operand array of the call ends at what the write-backs left of it, and every other unscoped
    buffer ends as the call found it. -/
theorem run : θ_run defs (onTc (τ := τ) (main (F := F))) (s₀ m ρ) (Pipeline.FramePost cfgs (book m) 0 (entry m)) :=
  Pipeline.θ_run_frame cfgs (book m) (0 : Fin 1) launch0 defs₀ Variants.none m ρ main
    (hbody := fun c => (body_obligation m c).loose) (hshare := fun c => (book m 0 c).share_full fun _ => rfl)
    (howed := fun _ _ => rfl) (V := entry m) (hmain := main_reaches_call m Variants.none) (hA := book_A m) (hΦ := fun _ _ => rfl)

/-- The program runs to its end without a fault and its eleven arguments end as launched. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => args_kept m (book m) (book_A m) h c) (run m ρ)

end Cert.KernelIdeal.Region

end
-- ==== Proof.LibJoinFour.lean ====
/-
  Four pieces of one shape set side by side, read at an index — and a sum over 2048 terms cut in two.

  A fused gate layer keeps its four gates' weights as ONE matrix of 4·1024 columns (and their biases as one row of
  4·1024 entries): column `1024·g + q` of the joined matrix is column `q` of gate `g`'s own matrix. This file states
  that for a join of four `n × 1024` matrices along the columns (any row count `n`), for a join of four vectors of
  1024 entries, and for a join of two `n × 1024` matrices along the columns; and that a sum over `Fin 2048` is the
  sum over its first 1024 indices plus the sum over its last 1024, in any commutative additive monoid.
-/
import Idealize.ShloMosaic.Lib.Pipeline.Value
import Idealize.ShloMosaic.Lib.ValueIdx

namespace Cert.JoinFour

open Idealize.ShloMosaic Idealize.ShloMosaic.ValueIdx

/-- Column (or entry) `q` of piece `g` in a join of four pieces of extent 1024: position `1024·g + q`. -/
def lane (g : Nat) (hg : g < 4) (q : Fin 1024) : Fin 4096 := ⟨1024 * g + q.val, by have := q.isLt; omega⟩

/-- Row `k` of the upper half of a matrix of 2048 rows, -/
def top (k : Fin 1024) : Fin 2048 := ⟨k.val, by have := k.isLt; omega⟩
/-- and row `k` of its lower half: row `1024 + k`. -/
def bot (k : Fin 1024) : Fin 2048 := ⟨1024 + k.val, by have := k.isLt; omega⟩

/-- A sum over 2048 indices is the sum over the upper half plus the sum over the lower half. -/
theorem sum_halves {M : Type*} [AddCommMonoid M] (f : Fin 2048 → M) :
    ∑ k : Fin 2048, f k = ∑ k : Fin 1024, f (top k) + ∑ k : Fin 1024, f (bot k) :=
  (Fin.sum_univ_add (a := 1024) (b := 1024) f).trans (by
    congr 1 <;> exact Finset.sum_congr rfl fun k _ => congrArg f (Fin.ext rfl))

/-! ## Four matrices joined along the columns -/

theorem join4_cols_0 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 0 (by decide) q)) = x0 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 0 (by decide) q)) 0 (by show (0 : Nat) < 4; omega) ⟨2, ![n, 1024]⟩ x0 rfl rfl 0 rfl (ix2 r q)
    (fun b hb => match b with
      | ⟨0, _⟩ => rfl
      | ⟨1, _⟩ => absurd rfl hb)
    (by show 0 + q.val = 1024 * 0 + q.val; omega)

theorem join4_cols_1 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 1 (by decide) q)) = x1 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 1 (by decide) q)) 1 (by show (1 : Nat) < 4; omega) ⟨2, ![n, 1024]⟩ x1 rfl rfl 1024 rfl (ix2 r q)
    (fun b hb => match b with
      | ⟨0, _⟩ => rfl
      | ⟨1, _⟩ => absurd rfl hb)
    (by show 1024 + q.val = 1024 * 1 + q.val; omega)

theorem join4_cols_2 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 2 (by decide) q)) = x2 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 2 (by decide) q)) 2 (by show (2 : Nat) < 4; omega) ⟨2, ![n, 1024]⟩ x2 rfl rfl 2048 rfl (ix2 r q)
    (fun b hb => match b with
      | ⟨0, _⟩ => rfl
      | ⟨1, _⟩ => absurd rfl hb)
    (by show 2048 + q.val = 1024 * 2 + q.val; omega)

theorem join4_cols_3 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 3 (by decide) q)) = x3 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 3 (by decide) q)) 3 (by show (3 : Nat) < 4; omega) ⟨2, ![n, 1024]⟩ x3 rfl rfl 3072 rfl (ix2 r q)
    (fun b hb => match b with
      | ⟨0, _⟩ => rfl
      | ⟨1, _⟩ => absurd rfl hb)
    (by show 3072 + q.val = 1024 * 3 + q.val; omega)

/-! ## Four vectors joined end to end -/

theorem join4_vec_0 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 0 (by decide) q)) = x0 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 0 (by decide) q)) 0 (by show (0 : Nat) < 4; omega) ⟨1, ![1024]⟩ x0 rfl rfl 0 rfl (ix1 q)
    (fun b hb => match b with
      | ⟨0, _⟩ => absurd rfl hb)
    (by show 0 + q.val = 1024 * 0 + q.val; omega)

theorem join4_vec_1 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 1 (by decide) q)) = x1 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 1 (by decide) q)) 1 (by show (1 : Nat) < 4; omega) ⟨1, ![1024]⟩ x1 rfl rfl 1024 rfl (ix1 q)
    (fun b hb => match b with
      | ⟨0, _⟩ => absurd rfl hb)
    (by show 1024 + q.val = 1024 * 1 + q.val; omega)

theorem join4_vec_2 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 2 (by decide) q)) = x2 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 2 (by decide) q)) 2 (by show (2 : Nat) < 4; omega) ⟨1, ![1024]⟩ x2 rfl rfl 2048 rfl (ix1 q)
    (fun b hb => match b with
      | ⟨0, _⟩ => absurd rfl hb)
    (by show 2048 + q.val = 1024 * 2 + q.val; omega)

theorem join4_vec_3 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 3 (by decide) q)) = x3 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 3 (by decide) q)) 3 (by show (3 : Nat) < 4; omega) ⟨1, ![1024]⟩ x3 rfl rfl 3072 rfl (ix1 q)
    (fun b hb => match b with
      | ⟨0, _⟩ => absurd rfl hb)
    (by show 3072 + q.val = 1024 * 3 + q.val; omega)

/-! ## Two matrices joined along the columns: the left one's columns first -/

theorem join2_cols_left {α : Type} {n : Nat} (x0 x1 : (⟨2, ![n, 1024]⟩ : Shape).Idx → α)
    (h : Shape.Concatenates [(⟨2, ![n, 1024]⟩ : Shape), ⟨2, ![n, 1024]⟩] ⟨2, ![n, 2048]⟩ 1) (r : Fin n) (k : Fin 1024) :
    concatenate (⟨2, ![n, 2048]⟩ : Shape) 1 [⟨⟨2, ![n, 1024]⟩, x0⟩, ⟨⟨2, ![n, 1024]⟩, x1⟩] h (ix2 r (top k)) = x0 (ix2 r k) :=
  concatenate_apply_piece (t := ⟨2, ![n, 2048]⟩) 1 [⟨⟨2, ![n, 1024]⟩, x0⟩, ⟨⟨2, ![n, 1024]⟩, x1⟩] h (ix2 r (top k)) 0 (by show (0 : Nat) < 2; omega) ⟨2, ![n, 1024]⟩ x0 rfl rfl 0 rfl (ix2 r k)
    (fun b hb => match b with
      | ⟨0, _⟩ => rfl
      | ⟨1, _⟩ => absurd rfl hb)
    (by show 0 + k.val = k.val; omega)

theorem join2_cols_right {α : Type} {n : Nat} (x0 x1 : (⟨2, ![n, 1024]⟩ : Shape).Idx → α)
    (h : Shape.Concatenates [(⟨2, ![n, 1024]⟩ : Shape), ⟨2, ![n, 1024]⟩] ⟨2, ![n, 2048]⟩ 1) (r : Fin n) (k : Fin 1024) :
    concatenate (⟨2, ![n, 2048]⟩ : Shape) 1 [⟨⟨2, ![n, 1024]⟩, x0⟩, ⟨⟨2, ![n, 1024]⟩, x1⟩] h (ix2 r (bot k)) = x1 (ix2 r k) :=
  concatenate_apply_piece (t := ⟨2, ![n, 2048]⟩) 1 [⟨⟨2, ![n, 1024]⟩, x0⟩, ⟨⟨2, ![n, 1024]⟩, x1⟩] h (ix2 r (bot k)) 1 (by show (1 : Nat) < 2; omega) ⟨2, ![n, 1024]⟩ x1 rfl rfl 1024 rfl (ix2 r k)
    (fun b hb => match b with
      | ⟨0, _⟩ => rfl
      | ⟨1, _⟩ => absurd rfl hb)
    (by show 1024 + k.val = 1024 + k.val; omega)

end Cert.JoinFour
-- ==== Proof.LstmSpec.lean ====
/-
  The LSTM cell, as one function of its eleven arrays on the extended reals.

  For batch row `r` and hidden unit `q`, gate `G` (with weight matrix `W` of 2048 rows — 1024 for the input
  features on top of 1024 for the previous hidden state — and bias `b`) has the pre-activation

      z_G(r, q) = Σ_k x(r, k) · W(k, q)  +  Σ_k h(r, k) · W(1024 + k, q)  +  b(q),

  and the cell computes, with σ the logistic function,

      c'(r, q) = σ(z_f) · c(r, q) + σ(z_i) · tanh(z_g),        h'(r, q) = σ(z_o) · tanh(c'(r, q)).

  The kernel forms the two sums separately (two matrix products, one per half of the weights); the reference forms one
  sum over the 2048 joined features. Both are this function: `LibJoinFour.sum_halves`.
-/
import Idealize.ShloMosaic.PureOps.Ideal
import Idealize.ShloMosaic.PureOps.Ideal.Laws
import Idealize.ShloMosaic.Lib.ValueIdx
import proofs.«173777_j85358180041592_1_alg».proof.Proof.LibJoinFour

noncomputable section

namespace Cert.Lstm

open Idealize.ShloMosaic Idealize.ShloMosaic.ValueIdx Cert.JoinFour

/-- A matrix of extended reals, and a vector of them. -/
abbrev Mat (a b : Nat) := (⟨2, ![a, b]⟩ : Shape).Idx → EReal
abbrev Row (a : Nat) := (⟨1, ![a]⟩ : Shape).Idx → EReal

/-- A gate's pre-activation from one row of input features `xr`, one row of hidden features `hr`, the gate's weight
    column cut into its upper half `wx` and lower half `wh`, and its bias `b`. -/
def gatePre (xr hr wx wh : Fin 1024 → EReal) (b : EReal) : EReal :=
  (∑ k : Fin 1024, xr k * wx k + ∑ k : Fin 1024, hr k * wh k) + b

/-- The new cell state from the input, forget and candidate pre-activations and the old cell state. -/
def cellOf (zi zf zg c : EReal) : EReal := Ideal.logistic zf * c + Ideal.logistic zi * Ideal.tanh zg

/-- The new hidden state from the output gate's pre-activation and the new cell state. -/
def hiddenOf (zo cell : EReal) : EReal := Ideal.logistic zo * Ideal.tanh cell

/-- Gate pre-activation at batch row `r`, unit `q`, from the whole arrays. -/
def pre (x h : Mat 8192 1024) (W : Mat 2048 1024) (b : Row 1024) (r : Fin 8192) (q : Fin 1024) : EReal :=
  gatePre (fun k => x (ix2 r k)) (fun k => h (ix2 r k)) (fun k => W (ix2 (top k) q)) (fun k => W (ix2 (bot k) q)) (b (ix1 q))

/-- The new cell state, as an array. -/
def newCell (x h c : Mat 8192 1024) (Wi : Mat 2048 1024) (bi : Row 1024) (Wf : Mat 2048 1024) (bf : Row 1024)
    (Wg : Mat 2048 1024) (bg : Row 1024) : Mat 8192 1024 :=
  fun i => cellOf (pre x h Wi bi (i 0) (i 1)) (pre x h Wf bf (i 0) (i 1)) (pre x h Wg bg (i 0) (i 1)) (c i)

/-- The new hidden state, as an array. -/
def newHidden (x h c : Mat 8192 1024) (Wi : Mat 2048 1024) (bi : Row 1024) (Wf : Mat 2048 1024) (bf : Row 1024)
    (Wo : Mat 2048 1024) (bo : Row 1024) (Wg : Mat 2048 1024) (bg : Row 1024) : Mat 8192 1024 :=
  fun i => hiddenOf (pre x h Wo bo (i 0) (i 1)) (newCell x h c Wi bi Wf bf Wg bg i)

/-- The float word of 1.0 denotes the real number one. -/
theorem one_word : Ideal.ofBits .f32 0x3F800000#32 = (1 : EReal) := by
  simp [Ideal.ofBits, Ideal.ieee, -EReal.coe_mul]; norm_num

/-- The logistic function spelt out on the host — one over one plus the exponential of the negated argument, the
    ones written as float words — is the logistic function. -/
theorem logistic_spelt (z : EReal) :
    Ideal.div (Ideal.ofBits .f32 0x3F800000#32) (Ideal.ofBits .f32 0x3F800000#32 + Ideal.exp (-z)) = Ideal.logistic z := by
  rw [one_word]; rfl

end Cert.Lstm

end
-- ==== Proof.TileValue.lean ====
/-
  The tiles the kernel body reads, as entries of the program's eleven arguments (extended reals).

  Before the call the host cuts each gate's 2048 × 1024 weight matrix into its upper 1024 rows (the input features')
  and its lower 1024 rows (the hidden features'), sets the four gates' upper halves side by side as one 1024 × 4096
  matrix and the four lower halves as another, joins the four bias vectors into one row of 4096, and narrows the
  activations (a change of float format: the identity on the extended reals). So, at grid point `t`:
  row `p` of the input / hidden / cell tile is row `256·t + p` of the argument; entry `(k, 1024·g + q)` of the upper
  weight tile is entry `(k, q)` of gate `g`'s matrix, of the lower tile entry `(1024 + k, q)`; entry `1024·g + q` of the
  bias tile is entry `q` of gate `g`'s bias.
-/
import proofs.«173777_j85358180041592_1_alg».proof.Proof.RegionIdeal
import proofs.«173777_j85358180041592_1_alg».proof.Proof.LstmSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Tiles

open Cert.KernelIdeal Cert.KernelIdeal.Gen Cert.KernelIdeal.Region
open Idealize.ShloMosaic Idealize.ShloMosaic.TcCoe Idealize.SL.Sem Idealize.ShloMosaic.StableHlo Idealize.ShloMosaic.ValueIdx
open Cert.JoinFour

variable (m : (ℓ : Loc nD τ sig) → Buf (Elt Ideal) ℓ)

/-! ## The grid -/

/-- Batch row `256·t + p`: row `p` of tile `t`. -/
def rowOf (t : Fin cfg0.N) (p : Fin 256) : Fin 8192 :=
  ⟨256 * t.val + p.val, by have := t.isLt; have := p.isLt; have hN : cfg0.N = 32 := N_0; omega⟩

/-- Where each window's tile sits at grid point `t`, decided over the 32 points: the three activation windows and the two
    result windows at row block `t`, the weight halves and the bias row whole. -/
theorem where_tiles_sit : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## A tile entry is an entry of the window's array -/

theorem tile0_at (c : Dev nD) (t : Fin cfg0.N) (y : S256x1024.Idx) (k : S8192x1024.Idx)
    (h0 : (k 0).val = 256 * t.val + (y 0).val) (h1 : (k 1).val = (y 1).val) :
    (tile m c 0 t : Vec Ideal S256x1024 .bf16) y = (entry m c main_v14 : S8192x1024.Idx → EReal) k := by
  obtain ⟨e0, e1⟩ := (where_tiles_sit t).1
  unfold tile
  rw [View.read_apply]
  show entry m c main_v14 _ = entry m c main_v14 _
  congr 1
  funext a
  apply Fin.ext
  match a with
  | ⟨0, _⟩ => show win0_0.index t 0 * 256 + 1 * (y 0).val = (k 0).val; omega
  | ⟨1, _⟩ => show win0_0.index t 1 * 1024 + 1 * (y 1).val = (k 1).val; omega

theorem tile1_at (c : Dev nD) (t : Fin cfg0.N) (y : S256x1024.Idx) (k : S8192x1024.Idx)
    (h0 : (k 0).val = 256 * t.val + (y 0).val) (h1 : (k 1).val = (y 1).val) :
    (tile m c 1 t : Vec Ideal S256x1024 .bf16) y = (entry m c main_v15 : S8192x1024.Idx → EReal) k := by
  obtain ⟨e0, e1⟩ := (where_tiles_sit t).2.1
  unfold tile
  rw [View.read_apply]
  show entry m c main_v15 _ = entry m c main_v15 _
  congr 1
  funext a
  apply Fin.ext
  match a with
  | ⟨0, _⟩ => show win0_1.index t 0 * 256 + 1 * (y 0).val = (k 0).val; omega
  | ⟨1, _⟩ => show win0_1.index t 1 * 1024 + 1 * (y 1).val = (k 1).val; omega

theorem tile2_at (c : Dev nD) (t : Fin cfg0.N) (y : S256x1024.Idx) (k : S8192x1024.Idx)
    (h0 : (k 0).val = 256 * t.val + (y 0).val) (h1 : (k 1).val = (y 1).val) :
    (tile m c 2 t : Vec Ideal S256x1024 .f32) y = (entry m c main_arg2 : S8192x1024.Idx → EReal) k := by
  obtain ⟨e0, e1⟩ := (where_tiles_sit t).2.2.1
  unfold tile
  rw [View.read_apply]
  show entry m c main_arg2 _ = entry m c main_arg2 _
  congr 1
  funext a
  apply Fin.ext
  match a with
  | ⟨0, _⟩ => show win0_2.index t 0 * 256 + 1 * (y 0).val = (k 0).val; omega
  | ⟨1, _⟩ => show win0_2.index t 1 * 1024 + 1 * (y 1).val = (k 1).val; omega

theorem tile3_at (c : Dev nD) (t : Fin cfg0.N) (y : S1024x4096.Idx) :
    (tile m c 3 t : Vec Ideal S1024x4096 .bf16) y = (entry m c main_v5 : S1024x4096.Idx → EReal) y := by
  obtain ⟨e0, e1⟩ := (where_tiles_sit t).2.2.2.1
  unfold tile
  rw [View.read_apply]
  show entry m c main_v5 _ = entry m c main_v5 _
  congr 1
  funext a
  apply Fin.ext
  match a with
  | ⟨0, _⟩ => show win0_3.index t 0 * 1024 + 1 * (y 0).val = (y 0).val; omega
  | ⟨1, _⟩ => show win0_3.index t 1 * 4096 + 1 * (y 1).val = (y 1).val; omega

theorem tile4_at (c : Dev nD) (t : Fin cfg0.N) (y : S1024x4096.Idx) :
    (tile m c 4 t : Vec Ideal S1024x4096 .bf16) y = (entry m c main_v11 : S1024x4096.Idx → EReal) y := by
  obtain ⟨e0, e1⟩ := (where_tiles_sit t).2.2.2.2.1
  unfold tile
  rw [View.read_apply]
  show entry m c main_v11 _ = entry m c main_v11 _
  congr 1
  funext a
  apply Fin.ext
  match a with
  | ⟨0, _⟩ => show win0_4.index t 0 * 1024 + 1 * (y 0).val = (y 0).val; omega
  | ⟨1, _⟩ => show win0_4.index t 1 * 4096 + 1 * (y 1).val = (y 1).val; omega

theorem tile5_at (c : Dev nD) (t : Fin cfg0.N) (y : S1x4096.Idx) :
    (tile m c 5 t : Vec Ideal S1x4096 .f32) y = (entry m c main_v13 : S1x4096.Idx → EReal) y := by
  obtain ⟨e0, e1⟩ := (where_tiles_sit t).2.2.2.2.2.1
  unfold tile
  rw [View.read_apply]
  show entry m c main_v13 _ = entry m c main_v13 _
  congr 1
  funext a
  apply Fin.ext
  match a with
  | ⟨0, _⟩ => show win0_5.index t 0 * 1 + 1 * (y 0).val = (y 0).val; omega
  | ⟨1, _⟩ => show win0_5.index t 1 * 4096 + 1 * (y 1).val = (y 1).val; omega

/-- Entry `(p, q)` of result tile `t` is entry `(256·t + p, q)` of the result array (both result windows). -/
theorem hidden_block_emb (t : Fin cfg0.N) (p : Fin 256) (q : Fin 1024) :
    ((cfg0.win 6).blk t).view.emb (ix2 p q) = ix2 (rowOf t p) q := by
  obtain ⟨e0, e1⟩ := (where_tiles_sit t).2.2.2.2.2.2.1
  funext a
  apply Fin.ext
  match a with
  | ⟨0, _⟩ => show win0_6.index t 0 * 256 + 1 * p.val = 256 * t.val + p.val; omega
  | ⟨1, _⟩ => show win0_6.index t 1 * 1024 + 1 * q.val = q.val; omega
theorem cell_block_emb (t : Fin cfg0.N) (p : Fin 256) (q : Fin 1024) :
    ((cfg0.win 7).blk t).view.emb (ix2 p q) = ix2 (rowOf t p) q := by
  obtain ⟨e0, e1⟩ := (where_tiles_sit t).2.2.2.2.2.2.2
  funext a
  apply Fin.ext
  match a with
  | ⟨0, _⟩ => show win0_7.index t 0 * 256 + 1 * p.val = 256 * t.val + p.val; omega
  | ⟨1, _⟩ => show win0_7.index t 1 * 1024 + 1 * q.val = q.val; omega

/-! ## What the host lines leave in the windows' arrays -/

/-- The narrowed input rows are the input rows. -/
theorem entry_input (c : Dev nD) : (entry m c main_v14 : S8192x1024.Idx → EReal) = (m ((c : Thread nD τ).loc main_arg0)) := by
  dsimp only [entry, hostOps0]; after_results; rfl
/-- The narrowed hidden rows are the hidden rows. -/
theorem entry_hidden (c : Dev nD) : (entry m c main_v15 : S8192x1024.Idx → EReal) = (m ((c : Thread nD τ).loc main_arg1)) := by
  dsimp only [entry, hostOps0]; after_results; rfl

/-- The upper weight tile: the four gates' upper 1024 rows side by side. -/
theorem entry_upper (c : Dev nD) : (entry m c main_v5 : S1024x4096.Idx → EReal)
    = concatenate S1024x4096 1 [⟨S1024x1024, extractStridedSlice S1024x1024 ![0, 0] (m ((c : Thread nD τ).loc main_arg3)) slices_S2048x1024_S1024x1024_0_0⟩,
        ⟨S1024x1024, extractStridedSlice S1024x1024 ![0, 0] (m ((c : Thread nD τ).loc main_arg5)) slices_S2048x1024_S1024x1024_0_0⟩,
        ⟨S1024x1024, extractStridedSlice S1024x1024 ![0, 0] (m ((c : Thread nD τ).loc main_arg7)) slices_S2048x1024_S1024x1024_0_0⟩,
        ⟨S1024x1024, extractStridedSlice S1024x1024 ![0, 0] (m ((c : Thread nD τ).loc main_arg9)) slices_S2048x1024_S1024x1024_0_0⟩]
        concatenates_S1024x1024_S1024x1024_S1024x1024_S1024x1024_S1024x4096_d1 := by
  dsimp only [entry, hostOps0]; after_results; rfl

/-- The lower weight tile: the four gates' lower 1024 rows side by side. -/
theorem entry_lower (c : Dev nD) : (entry m c main_v11 : S1024x4096.Idx → EReal)
    = concatenate S1024x4096 1 [⟨S1024x1024, extractStridedSlice S1024x1024 ![1024, 0] (m ((c : Thread nD τ).loc main_arg3)) slices_S2048x1024_S1024x1024_1024_0⟩,
        ⟨S1024x1024, extractStridedSlice S1024x1024 ![1024, 0] (m ((c : Thread nD τ).loc main_arg5)) slices_S2048x1024_S1024x1024_1024_0⟩,
        ⟨S1024x1024, extractStridedSlice S1024x1024 ![1024, 0] (m ((c : Thread nD τ).loc main_arg7)) slices_S2048x1024_S1024x1024_1024_0⟩,
        ⟨S1024x1024, extractStridedSlice S1024x1024 ![1024, 0] (m ((c : Thread nD τ).loc main_arg9)) slices_S2048x1024_S1024x1024_1024_0⟩]
        concatenates_S1024x1024_S1024x1024_S1024x1024_S1024x1024_S1024x4096_d1 := by
  dsimp only [entry, hostOps0]; after_results; rfl

/-- The bias row: the four gates' biases end to end, as one row. -/
theorem entry_bias (c : Dev nD) : (entry m c main_v13 : S1x4096.Idx → EReal)
    = shapeCast S1x4096 (concatenate S4096 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩]
        concatenates_S1024_S1024_S1024_S1024_S4096_d0) shapeCasts_S4096_S1x4096 := by
  dsimp only [entry, hostOps0]; after_results; rfl

/-! ## The tiles' entries as the arguments' -/

/-- Row `p` of the input tile at point `t` is row `256·t + p` of the input. -/
theorem input_tile_at (c : Dev nD) (t : Fin cfg0.N) (p : Fin 256) (k : Fin 1024) :
    (tile m c 0 t : Vec Ideal S256x1024 .bf16) (ix2 p k) = ((m ((c : Thread nD τ).loc main_arg0)) : S8192x1024.Idx → EReal) (ix2 (rowOf t p) k) :=
  (tile0_at m c t (ix2 p k) (ix2 (rowOf t p) k) rfl rfl).trans (congrFun (entry_input m c) _)
/-- Row `p` of the hidden tile at point `t` is row `256·t + p` of the hidden state. -/
theorem hidden_tile_at (c : Dev nD) (t : Fin cfg0.N) (p : Fin 256) (k : Fin 1024) :
    (tile m c 1 t : Vec Ideal S256x1024 .bf16) (ix2 p k) = ((m ((c : Thread nD τ).loc main_arg1)) : S8192x1024.Idx → EReal) (ix2 (rowOf t p) k) :=
  (tile1_at m c t (ix2 p k) (ix2 (rowOf t p) k) rfl rfl).trans (congrFun (entry_hidden m c) _)
/-- Row `p` of the cell tile at point `t` is row `256·t + p` of the cell state. -/
theorem cell_tile_at (c : Dev nD) (t : Fin cfg0.N) (p : Fin 256) (q : Fin 1024) :
    (tile m c 2 t : Vec Ideal S256x1024 .f32) (ix2 p q) = ((m ((c : Thread nD τ).loc main_arg2)) : S8192x1024.Idx → EReal) (ix2 (rowOf t p) q) :=
  (tile2_at m c t (ix2 p q) (ix2 (rowOf t p) q) rfl rfl).trans (congrFun (entry_arg2 m c) _)

/-- Column `1024·0 + q` of the weight tiles is column `q` of the input gate's weights: the upper tile its rows
    `k`, the lower tile its rows `1024 + k`; entry `1024·0 + q` of the bias tile is the gate's bias at `q`. -/
theorem upper_tile_at_0 (c : Dev nD) (t : Fin cfg0.N) (k q : Fin 1024) :
    (tile m c 3 t : Vec Ideal S1024x4096 .bf16) (ix2 k (lane 0 (by decide) q)) = ((m ((c : Thread nD τ).loc main_arg3)) : S2048x1024.Idx → EReal) (ix2 (top k) q) := by
  refine (tile3_at m c t _).trans ((congrFun (entry_upper m c) _).trans ?_)
  exact (join4_cols_0 _ _ _ _ _ k q).trans (slice2_axis0_apply 0 _ _ k q (top k) (by show k.val = 0 + k.val; omega))
theorem lower_tile_at_0 (c : Dev nD) (t : Fin cfg0.N) (k q : Fin 1024) :
    (tile m c 4 t : Vec Ideal S1024x4096 .bf16) (ix2 k (lane 0 (by decide) q)) = ((m ((c : Thread nD τ).loc main_arg3)) : S2048x1024.Idx → EReal) (ix2 (bot k) q) := by
  refine (tile4_at m c t _).trans ((congrFun (entry_lower m c) _).trans ?_)
  exact (join4_cols_0 _ _ _ _ _ k q).trans (slice2_axis0_apply 1024 _ _ k q (bot k) (by show 1024 + k.val = 1024 + k.val; rfl))
theorem bias_tile_at_0 (c : Dev nD) (t : Fin cfg0.N) (q : Fin 1024) :
    (tile m c 5 t : Vec Ideal S1x4096 .f32) (ix2 0 (lane 0 (by decide) q)) = ((m ((c : Thread nD τ).loc main_arg4)) : S1024.Idx → EReal) (ix1 q) := by
  refine (tile5_at m c t _).trans ((congrFun (entry_bias m c) _).trans ?_)
  refine (shapeCast_addUnit_apply ![4096] _ _ (ix2 0 (lane 0 (by decide) q))).trans ?_
  have e : (fun a : Fin 1 => (ix2 (0 : Fin 1) (lane 0 (by decide) q)) a.succ) = ix1 (lane 0 (by decide) q) :=
    funext fun a => match a with | ⟨0, _⟩ => rfl
  rw [e]
  exact join4_vec_0 _ _ _ _ _ q

/-- Column `1024·1 + q` of the weight tiles is column `q` of the forget gate's weights: the upper tile its rows
    `k`, the lower tile its rows `1024 + k`; entry `1024·1 + q` of the bias tile is the gate's bias at `q`. -/
theorem upper_tile_at_1 (c : Dev nD) (t : Fin cfg0.N) (k q : Fin 1024) :
    (tile m c 3 t : Vec Ideal S1024x4096 .bf16) (ix2 k (lane 1 (by decide) q)) = ((m ((c : Thread nD τ).loc main_arg5)) : S2048x1024.Idx → EReal) (ix2 (top k) q) := by
  refine (tile3_at m c t _).trans ((congrFun (entry_upper m c) _).trans ?_)
  exact (join4_cols_1 _ _ _ _ _ k q).trans (slice2_axis0_apply 0 _ _ k q (top k) (by show k.val = 0 + k.val; omega))
theorem lower_tile_at_1 (c : Dev nD) (t : Fin cfg0.N) (k q : Fin 1024) :
    (tile m c 4 t : Vec Ideal S1024x4096 .bf16) (ix2 k (lane 1 (by decide) q)) = ((m ((c : Thread nD τ).loc main_arg5)) : S2048x1024.Idx → EReal) (ix2 (bot k) q) := by
  refine (tile4_at m c t _).trans ((congrFun (entry_lower m c) _).trans ?_)
  exact (join4_cols_1 _ _ _ _ _ k q).trans (slice2_axis0_apply 1024 _ _ k q (bot k) (by show 1024 + k.val = 1024 + k.val; rfl))
theorem bias_tile_at_1 (c : Dev nD) (t : Fin cfg0.N) (q : Fin 1024) :
    (tile m c 5 t : Vec Ideal S1x4096 .f32) (ix2 0 (lane 1 (by decide) q)) = ((m ((c : Thread nD τ).loc main_arg6)) : S1024.Idx → EReal) (ix1 q) := by
  refine (tile5_at m c t _).trans ((congrFun (entry_bias m c) _).trans ?_)
  refine (shapeCast_addUnit_apply ![4096] _ _ (ix2 0 (lane 1 (by decide) q))).trans ?_
  have e : (fun a : Fin 1 => (ix2 (0 : Fin 1) (lane 1 (by decide) q)) a.succ) = ix1 (lane 1 (by decide) q) :=
    funext fun a => match a with | ⟨0, _⟩ => rfl
  rw [e]
  exact join4_vec_1 _ _ _ _ _ q

/-- Column `1024·2 + q` of the weight tiles is column `q` of the output gate's weights: the upper tile its rows
    `k`, the lower tile its rows `1024 + k`; entry `1024·2 + q` of the bias tile is the gate's bias at `q`. -/
theorem upper_tile_at_2 (c : Dev nD) (t : Fin cfg0.N) (k q : Fin 1024) :
    (tile m c 3 t : Vec Ideal S1024x4096 .bf16) (ix2 k (lane 2 (by decide) q)) = ((m ((c : Thread nD τ).loc main_arg7)) : S2048x1024.Idx → EReal) (ix2 (top k) q) := by
  refine (tile3_at m c t _).trans ((congrFun (entry_upper m c) _).trans ?_)
  exact (join4_cols_2 _ _ _ _ _ k q).trans (slice2_axis0_apply 0 _ _ k q (top k) (by show k.val = 0 + k.val; omega))
theorem lower_tile_at_2 (c : Dev nD) (t : Fin cfg0.N) (k q : Fin 1024) :
    (tile m c 4 t : Vec Ideal S1024x4096 .bf16) (ix2 k (lane 2 (by decide) q)) = ((m ((c : Thread nD τ).loc main_arg7)) : S2048x1024.Idx → EReal) (ix2 (bot k) q) := by
  refine (tile4_at m c t _).trans ((congrFun (entry_lower m c) _).trans ?_)
  exact (join4_cols_2 _ _ _ _ _ k q).trans (slice2_axis0_apply 1024 _ _ k q (bot k) (by show 1024 + k.val = 1024 + k.val; rfl))
theorem bias_tile_at_2 (c : Dev nD) (t : Fin cfg0.N) (q : Fin 1024) :
    (tile m c 5 t : Vec Ideal S1x4096 .f32) (ix2 0 (lane 2 (by decide) q)) = ((m ((c : Thread nD τ).loc main_arg8)) : S1024.Idx → EReal) (ix1 q) := by
  refine (tile5_at m c t _).trans ((congrFun (entry_bias m c) _).trans ?_)
  refine (shapeCast_addUnit_apply ![4096] _ _ (ix2 0 (lane 2 (by decide) q))).trans ?_
  have e : (fun a : Fin 1 => (ix2 (0 : Fin 1) (lane 2 (by decide) q)) a.succ) = ix1 (lane 2 (by decide) q) :=
    funext fun a => match a with | ⟨0, _⟩ => rfl
  rw [e]
  exact join4_vec_2 _ _ _ _ _ q

/-- Column `1024·3 + q` of the weight tiles is column `q` of the candidate gate's weights: the upper tile its rows
    `k`, the lower tile its rows `1024 + k`; entry `1024·3 + q` of the bias tile is the gate's bias at `q`. -/
theorem upper_tile_at_3 (c : Dev nD) (t : Fin cfg0.N) (k q : Fin 1024) :
    (tile m c 3 t : Vec Ideal S1024x4096 .bf16) (ix2 k (lane 3 (by decide) q)) = ((m ((c : Thread nD τ).loc main_arg9)) : S2048x1024.Idx → EReal) (ix2 (top k) q) := by
  refine (tile3_at m c t _).trans ((congrFun (entry_upper m c) _).trans ?_)
  exact (join4_cols_3 _ _ _ _ _ k q).trans (slice2_axis0_apply 0 _ _ k q (top k) (by show k.val = 0 + k.val; omega))
theorem lower_tile_at_3 (c : Dev nD) (t : Fin cfg0.N) (k q : Fin 1024) :
    (tile m c 4 t : Vec Ideal S1024x4096 .bf16) (ix2 k (lane 3 (by decide) q)) = ((m ((c : Thread nD τ).loc main_arg9)) : S2048x1024.Idx → EReal) (ix2 (bot k) q) := by
  refine (tile4_at m c t _).trans ((congrFun (entry_lower m c) _).trans ?_)
  exact (join4_cols_3 _ _ _ _ _ k q).trans (slice2_axis0_apply 1024 _ _ k q (bot k) (by show 1024 + k.val = 1024 + k.val; rfl))
theorem bias_tile_at_3 (c : Dev nD) (t : Fin cfg0.N) (q : Fin 1024) :
    (tile m c 5 t : Vec Ideal S1x4096 .f32) (ix2 0 (lane 3 (by decide) q)) = ((m ((c : Thread nD τ).loc main_arg10)) : S1024.Idx → EReal) (ix1 q) := by
  refine (tile5_at m c t _).trans ((congrFun (entry_bias m c) _).trans ?_)
  refine (shapeCast_addUnit_apply ![4096] _ _ (ix2 0 (lane 3 (by decide) q))).trans ?_
  have e : (fun a : Fin 1 => (ix2 (0 : Fin 1) (lane 3 (by decide) q)) a.succ) = ix1 (lane 3 (by decide) q) :=
    funext fun a => match a with | ⟨0, _⟩ => rfl
  rw [e]
  exact join4_vec_3 _ _ _ _ _ q

end Cert.KernelIdeal.Tiles

end
-- ==== Proof.BodyValue.lean ====
/-
  What the kernel body computes, entry by entry, on the extended reals.

  The body multiplies its 256 input rows by the upper weight half and its 256 hidden rows by the lower half (two
  256 × 1024 by 1024 × 4096 products into zero accumulators), adds the two products and the bias row, cuts the
  4096 columns into the four gates' 1024, and applies the cell's formulas. Read at row `p` and unit `q` of the
  tile this is `cellOf` / `hiddenOf` of four pre-activations `gatePre`, gate `g`'s taken at column `1024·g + q`.
-/
import proofs.«173777_j85358180041592_1_alg».proof.Proof.Gen.KernelIdeal.Skeleton
import proofs.«173777_j85358180041592_1_alg».proof.Proof.LstmSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.JoinFour Cert.Lstm

/-- The dimension numbers of the body's two products: rows times columns, one contracted axis of 1024. -/
abbrev rowsByCols : DotDims S256x1024 S1024x4096 S256x4096 := dot_S256x1024_S1024x4096_S256x4096_1_0_0_1_n_n

/-! ## Where a product's factors sit -/

theorem left_row (i : S256x4096.Idx) (κ : rowsByCols.contr.Idx) : (rowsByCols.lhsIdx i κ 0).val = (i 0).val := by
  unfold DotDims.lhsIdx
  rw [dif_neg (show ¬(0 : Fin S256x1024.rank) ∈ rowsByCols.lhsBatch by decide),
    dif_pos (show (0 : Fin S256x1024.rank) ∈ rowsByCols.lhsNonContracting by decide)]
  rfl
theorem left_col (i : S256x4096.Idx) (κ : rowsByCols.contr.Idx) : (rowsByCols.lhsIdx i κ 1).val = (κ ⟨0, by decide⟩).val :=
  rowsByCols.lhsIdx_val_of_single rfl i κ
theorem right_row (i : S256x4096.Idx) (κ : rowsByCols.contr.Idx) : (rowsByCols.rhsIdx i κ 0).val = (κ ⟨0, by decide⟩).val :=
  rowsByCols.rhsIdx_val_of_single rfl i κ
theorem right_col (i : S256x4096.Idx) (κ : rowsByCols.contr.Idx) : (rowsByCols.rhsIdx i κ 1).val = (i 1).val := by
  unfold DotDims.rhsIdx
  rw [dif_neg (show ¬(1 : Fin S1024x4096.rank) ∈ rowsByCols.rhsBatch by decide),
    dif_pos (show (1 : Fin S1024x4096.rank) ∈ rowsByCols.rhsNonContracting by decide)]
  rfl

/-- A product into the zero accumulator, at row `p` and column `l`: the sum over the 1024 contracted positions. -/
theorem product_apply (a : FVec Ideal S256x1024 .bf16) (w : FVec Ideal S1024x4096 .bf16) (p : Fin 256) (l : Fin 4096) :
    matmul rowsByCols none a w (constant (F := Ideal) S256x4096 .f32 0x00000000#32) (ix2 p l)
      = ∑ k : Fin 1024, a (ix2 p k) * w (ix2 k l) := by
  refine (Ideal.matmul_constant_zero_apply rowsByCols none a w (ix2 p l)).trans ?_
  rw [← Equiv.sum_comp (contrEquiv1 rowsByCols 1024 rfl rfl).symm]
  refine Finset.sum_congr rfl fun k _ => ?_
  have hk := contrEquiv1_symm_val rowsByCols 1024 rfl rfl k
  have el : rowsByCols.lhsIdx (ix2 p l) ((contrEquiv1 rowsByCols 1024 rfl rfl).symm k) = ix2 p k := funext fun a => Fin.ext (by
    match a with
    | ⟨0, _⟩ => exact left_row _ _
    | ⟨1, _⟩ => exact (left_col _ _).trans hk)
  have er : rowsByCols.rhsIdx (ix2 p l) ((contrEquiv1 rowsByCols 1024 rfl rfl).symm k) = ix2 k l := funext fun a => Fin.ext (by
    match a with
    | ⟨0, _⟩ => exact (right_row _ _).trans hk
    | ⟨1, _⟩ => exact right_col _ _)
  rw [el, er]

/-- The bias row spread over the 256 rows, read at row `p`, column `l`: the bias at `l`. -/
theorem spread_bias_apply (b : FVec Ideal S1x4096 .f32) (h : S1x4096.Broadcasts S256x4096) (p : Fin 256) (l : Fin 4096) :
    broadcastTo S256x4096 b h (ix2 p l) = b (ix2 0 l) :=
  broadcastTo_apply b h (ix2 p l) (ix2 0 l) (fun a => match a with
    | ⟨0, _⟩ => by show (0 : Nat) = if (1 : Nat) = 1 then 0 else _; rw [if_pos rfl]
    | ⟨1, _⟩ => by show l.val = if (4096 : Nat) = 1 then 0 else _; rw [if_neg (by decide)]; rfl)

/-- Gate `g`'s 1024 columns cut out of the 4096, read at row `p`, unit `q`: column `1024·g + q`. -/
theorem gate_cut_0 (v : FVec Ideal S256x4096 .f32) (h : S256x4096.Slices ![0, 0] S256x1024) (p : Fin 256) (q : Fin 1024) :
    extractStridedSlice S256x1024 ![0, 0] v h (ix2 p q) = v (ix2 p (lane 0 (by decide) q)) :=
  extractStridedSlice_apply ![0, 0] v h (ix2 p q) (ix2 p (lane 0 (by decide) q)) (fun a => match a with
    | ⟨0, _⟩ => by show p.val = 0 + p.val; omega
    | ⟨1, _⟩ => by show 1024 * 0 + q.val = 0 + q.val; omega)
theorem gate_cut_1 (v : FVec Ideal S256x4096 .f32) (h : S256x4096.Slices ![0, 1024] S256x1024) (p : Fin 256) (q : Fin 1024) :
    extractStridedSlice S256x1024 ![0, 1024] v h (ix2 p q) = v (ix2 p (lane 1 (by decide) q)) :=
  extractStridedSlice_apply ![0, 1024] v h (ix2 p q) (ix2 p (lane 1 (by decide) q)) (fun a => match a with
    | ⟨0, _⟩ => by show p.val = 0 + p.val; omega
    | ⟨1, _⟩ => by show 1024 * 1 + q.val = 1024 + q.val; omega)
theorem gate_cut_2 (v : FVec Ideal S256x4096 .f32) (h : S256x4096.Slices ![0, 2048] S256x1024) (p : Fin 256) (q : Fin 1024) :
    extractStridedSlice S256x1024 ![0, 2048] v h (ix2 p q) = v (ix2 p (lane 2 (by decide) q)) :=
  extractStridedSlice_apply ![0, 2048] v h (ix2 p q) (ix2 p (lane 2 (by decide) q)) (fun a => match a with
    | ⟨0, _⟩ => by show p.val = 0 + p.val; omega
    | ⟨1, _⟩ => by show 1024 * 2 + q.val = 2048 + q.val; omega)
theorem gate_cut_3 (v : FVec Ideal S256x4096 .f32) (h : S256x4096.Slices ![0, 3072] S256x1024) (p : Fin 256) (q : Fin 1024) :
    extractStridedSlice S256x1024 ![0, 3072] v h (ix2 p q) = v (ix2 p (lane 3 (by decide) q)) :=
  extractStridedSlice_apply ![0, 3072] v h (ix2 p q) (ix2 p (lane 3 (by decide) q)) (fun a => match a with
    | ⟨0, _⟩ => by show p.val = 0 + p.val; omega
    | ⟨1, _⟩ => by show 1024 * 3 + q.val = 3072 + q.val; omega)

/-- The lane-by-lane functions at an index. -/
theorem logistic_at (v : FVec Ideal S256x1024 .f32) (i : S256x1024.Idx) : logistic v i = Ideal.logistic (v i) := rfl
theorem tanh_at (v : FVec Ideal S256x1024 .f32) (i : S256x1024.Idx) : tanh v i = Ideal.tanh (v i) := rfl

/-! ## The body's values -/

/-- A pre-activation from the tiles the body loads: row `p` of the input and hidden tiles against column `l` of the two
    weight halves, plus the bias at `l`. -/
def tilePre (x h : Vec Ideal S256x1024 .bf16) (wx wh : Vec Ideal S1024x4096 .bf16) (b : Vec Ideal S1x4096 .f32)
    (p : Fin 256) (l : Fin 4096) : EReal :=
  gatePre (fun k => x (ix2 p k)) (fun k => h (ix2 p k)) (fun k => wx (ix2 k l)) (fun k => wh (ix2 k l)) (b (ix2 0 l))

/-- The 256 × 4096 matrix of pre-activations the body forms is `tilePre`, entry by entry. -/
theorem preacts_apply (x h : Vec Ideal S256x1024 .bf16) (wx wh : Vec Ideal S1024x4096 .bf16) (b : Vec Ideal S1x4096 .f32)
    (p : Fin 256) (l : Fin 4096) : k0_pay1 x h wx wh b (ix2 p l) = tilePre x h wx wh b p l := by
  unfold k0_pay1 tilePre gatePre
  simp only [shapeCast_self]
  rw [addf_apply, addf_apply, product_apply, product_apply, spread_bias_apply]

/-- The new cell state the body stores, at row `p`, unit `q`. -/
theorem cell_store_apply (x h : Vec Ideal S256x1024 .bf16) (wx wh : Vec Ideal S1024x4096 .bf16) (b : Vec Ideal S1x4096 .f32)
    (cs : Vec Ideal S256x1024 .f32) (p : Fin 256) (q : Fin 1024) :
    k0_pay2 x h wx wh b cs (ix2 p q)
      = cellOf (tilePre x h wx wh b p (lane 0 (by decide) q)) (tilePre x h wx wh b p (lane 1 (by decide) q))
          (tilePre x h wx wh b p (lane 3 (by decide) q)) (cs (ix2 p q)) := by
  unfold k0_pay2 cellOf
  simp only [addf_apply, mulf_apply, logistic_at, tanh_at]
  rw [gate_cut_0, gate_cut_1, gate_cut_3, preacts_apply, preacts_apply, preacts_apply]

/-- The new hidden state the body stores, at row `p`, unit `q`. -/
theorem hidden_store_apply (x h : Vec Ideal S256x1024 .bf16) (wx wh : Vec Ideal S1024x4096 .bf16) (b : Vec Ideal S1x4096 .f32)
    (cs : Vec Ideal S256x1024 .f32) (p : Fin 256) (q : Fin 1024) :
    k0_pay3 x h wx wh b cs (ix2 p q)
      = hiddenOf (tilePre x h wx wh b p (lane 2 (by decide) q))
          (cellOf (tilePre x h wx wh b p (lane 0 (by decide) q)) (tilePre x h wx wh b p (lane 1 (by decide) q))
            (tilePre x h wx wh b p (lane 3 (by decide) q)) (cs (ix2 p q))) := by
  unfold k0_pay3 hiddenOf
  simp only [mulf_apply, logistic_at, tanh_at]
  rw [gate_cut_2, preacts_apply, cell_store_apply]

end Cert.KernelIdeal.Body

end
-- ==== Proof.KernelValue.lean ====
/-
  The two result arrays after the kernel program's run, as the LSTM cell function of the arguments.

  At grid point `t` the body's pre-activations, formed from the tiles, are the specification's at batch rows
  `256·t … 256·t + 255` (`tile_pre_g`); so what the point writes back into each result array is that tile of the
  specification's array (`cell_written`, `hidden_written`). The 32 tiles cover the 8192 rows, so each result array
  ends as the specification's array whole.
-/
import proofs.«173777_j85358180041592_1_alg».proof.Proof.TileValue
import proofs.«173777_j85358180041592_1_alg».proof.Proof.BodyValue

set_option maxRecDepth 16384

noncomputable section

namespace Cert.KernelIdeal.Final

open Cert.KernelIdeal Cert.KernelIdeal.Gen Cert.KernelIdeal.Region Cert.KernelIdeal.Tiles Cert.KernelIdeal.Body
open Idealize.ShloMosaic Idealize.ShloMosaic.TcCoe Idealize.SL.Sem Idealize.ShloMosaic.ValueIdx
open Idealize.ShloMosaic.Pipeline (Dat)
open Cert.JoinFour Cert.Lstm

variable (m : (ℓ : Loc nD τ sig) → Buf (Elt Ideal) ℓ) (ρ : Dev nD → PrngReg)

/-- The new cell state of the arguments on core `c`. -/
def cellArr (c : Dev nD) : S8192x1024.Idx → EReal :=
  newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
/-- The new hidden state of the arguments on core `c`. -/
def hiddenArr (c : Dev nD) : S8192x1024.Idx → EReal :=
  newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem cellArr_at (c : Dev nD) (r : Fin 8192) (q : Fin 1024) : cellArr m c (ix2 r q)
    = cellOf (pre (m ((c : Thread nD τ).loc main_arg0)) (m ((c : Thread nD τ).loc main_arg1)) (m ((c : Thread nD τ).loc main_arg3)) (m ((c : Thread nD τ).loc main_arg4)) r q)
        (pre (m ((c : Thread nD τ).loc main_arg0)) (m ((c : Thread nD τ).loc main_arg1)) (m ((c : Thread nD τ).loc main_arg5)) (m ((c : Thread nD τ).loc main_arg6)) r q)
        (pre (m ((c : Thread nD τ).loc main_arg0)) (m ((c : Thread nD τ).loc main_arg1)) (m ((c : Thread nD τ).loc main_arg9)) (m ((c : Thread nD τ).loc main_arg10)) r q) ((m ((c : Thread nD τ).loc main_arg2)) (ix2 r q)) := rfl
theorem hiddenArr_at (c : Dev nD) (r : Fin 8192) (q : Fin 1024) : hiddenArr m c (ix2 r q)
    = hiddenOf (pre (m ((c : Thread nD τ).loc main_arg0)) (m ((c : Thread nD τ).loc main_arg1)) (m ((c : Thread nD τ).loc main_arg7)) (m ((c : Thread nD τ).loc main_arg8)) r q) (cellArr m c (ix2 r q)) := rfl

theorem hz : (![0, 0] : Fin 2 → Nat) = fun _ => 0 := funext fun a => by fin_cases a <;> rfl

/-! ## The body's pre-activations are the specification's -/

theorem tile_pre_0 (c : Dev nD) (t : Fin cfg0.N) (p : Fin 256) (q : Fin 1024) :
    tilePre (tile m c 0 t) (tile m c 1 t) (tile m c 3 t) (tile m c 4 t) (tile m c 5 t) p (lane 0 (by decide) q)
      = pre (m ((c : Thread nD τ).loc main_arg0)) (m ((c : Thread nD τ).loc main_arg1)) (m ((c : Thread nD τ).loc main_arg3)) (m ((c : Thread nD τ).loc main_arg4)) (rowOf t p) q := by
  unfold tilePre pre
  simp only [input_tile_at, hidden_tile_at, upper_tile_at_0, lower_tile_at_0, bias_tile_at_0]

theorem tile_pre_1 (c : Dev nD) (t : Fin cfg0.N) (p : Fin 256) (q : Fin 1024) :
    tilePre (tile m c 0 t) (tile m c 1 t) (tile m c 3 t) (tile m c 4 t) (tile m c 5 t) p (lane 1 (by decide) q)
      = pre (m ((c : Thread nD τ).loc main_arg0)) (m ((c : Thread nD τ).loc main_arg1)) (m ((c : Thread nD τ).loc main_arg5)) (m ((c : Thread nD τ).loc main_arg6)) (rowOf t p) q := by
  unfold tilePre pre
  simp only [input_tile_at, hidden_tile_at, upper_tile_at_1, lower_tile_at_1, bias_tile_at_1]

theorem tile_pre_2 (c : Dev nD) (t : Fin cfg0.N) (p : Fin 256) (q : Fin 1024) :
    tilePre (tile m c 0 t) (tile m c 1 t) (tile m c 3 t) (tile m c 4 t) (tile m c 5 t) p (lane 2 (by decide) q)
      = pre (m ((c : Thread nD τ).loc main_arg0)) (m ((c : Thread nD τ).loc main_arg1)) (m ((c : Thread nD τ).loc main_arg7)) (m ((c : Thread nD τ).loc main_arg8)) (rowOf t p) q := by
  unfold tilePre pre
  simp only [input_tile_at, hidden_tile_at, upper_tile_at_2, lower_tile_at_2, bias_tile_at_2]

theorem tile_pre_3 (c : Dev nD) (t : Fin cfg0.N) (p : Fin 256) (q : Fin 1024) :
    tilePre (tile m c 0 t) (tile m c 1 t) (tile m c 3 t) (tile m c 4 t) (tile m c 5 t) p (lane 3 (by decide) q)
      = pre (m ((c : Thread nD τ).loc main_arg0)) (m ((c : Thread nD τ).loc main_arg1)) (m ((c : Thread nD τ).loc main_arg9)) (m ((c : Thread nD τ).loc main_arg10)) (rowOf t p) q := by
  unfold tilePre pre
  simp only [input_tile_at, hidden_tile_at, upper_tile_at_3, lower_tile_at_3, bias_tile_at_3]

/-! ## What a point writes back -/

/-- Point `t` writes back tile `t` of the new cell state. -/
theorem cell_written (c : Dev nD) (t : Fin cfg0.N) :
    (book m 0 c).flushed 7 t = ((cfg0.win 7).blk t).view.read (Elt Ideal) (cellArr m c) := by
  show (cfg0.win 7).cut (grid0.coords t) ((book m 0 c).after 7 t) = _
  rw [after_7]
  unfold cellTile
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (cell_store_apply (tile m c 0 t) (tile m c 1 t) (tile m c 3 t) (tile m c 4 t) (tile m c 5 t) (tile m c 2 t) p q).trans ?_
  rw [tile_pre_0, tile_pre_1, tile_pre_3, cell_tile_at, View.read_apply, cell_block_emb, cellArr_at]
  rfl

/-- Point `t` writes back tile `t` of the new hidden state. -/
theorem hidden_written (c : Dev nD) (t : Fin cfg0.N) :
    (book m 0 c).flushed 6 t = ((cfg0.win 6).blk t).view.read (Elt Ideal) (hiddenArr m c) := by
  show (cfg0.win 6).cut (grid0.coords t) ((book m 0 c).after 6 t) = _
  rw [after_6]
  unfold hiddenTile
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (hidden_store_apply (tile m c 0 t) (tile m c 1 t) (tile m c 3 t) (tile m c 4 t) (tile m c 5 t) (tile m c 2 t) p q).trans ?_
  rw [tile_pre_0, tile_pre_1, tile_pre_2, tile_pre_3, cell_tile_at, View.read_apply, hidden_block_emb, hiddenArr_at, cellArr_at]
  rfl

/-! ## The tiles cover the arrays -/

theorem mem_hidden_block (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v16_0).slice (win0_6.rect t)).set ↔ _
  rw [View.set_slice_whole, Rect.mem_set_unit]
  exact Iff.rfl
theorem mem_cell_block (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v16_1).slice (win0_7.rect t)).set ↔ _
  rw [View.set_slice_whole, Rect.mem_set_unit]
  exact Iff.rfl

/-- Row `r` lies in tile `r / 256`. -/
theorem hidden_covered (i : S8192x1024.Idx) : ∃ t : Fin cfg0.N, (cfg0.win 6).flush t = true ∧ i ∈ ((cfg0.win 6).blk t).view.set := by
  have hN : cfg0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  obtain ⟨e0, e1⟩ := (where_tiles_sit t).2.2.2.2.2.2.1
  refine ⟨t, flush0_6 t, ?_⟩
  rw [mem_hidden_block]
  intro a
  match a with
  | ⟨0, _⟩ => show win0_6.index t 0 * 256 ≤ (i 0).val ∧ (i 0).val < win0_6.index t 0 * 256 + 256; omega
  | ⟨1, _⟩ => show win0_6.index t 1 * 1024 ≤ (i 1).val ∧ (i 1).val < win0_6.index t 1 * 1024 + 1024; omega
theorem cell_covered (i : S8192x1024.Idx) : ∃ t : Fin cfg0.N, (cfg0.win 7).flush t = true ∧ i ∈ ((cfg0.win 7).blk t).view.set := by
  have hN : cfg0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  obtain ⟨e0, e1⟩ := (where_tiles_sit t).2.2.2.2.2.2.2
  refine ⟨t, flush0_7 t, ?_⟩
  rw [mem_cell_block]
  intro a
  match a with
  | ⟨0, _⟩ => show win0_7.index t 0 * 256 ≤ (i 0).val ∧ (i 0).val < win0_7.index t 0 * 256 + 256; omega
  | ⟨1, _⟩ => show win0_7.index t 1 * 1024 ≤ (i 1).val ∧ (i 1).val < win0_7.index t 1 * 1024 + 1024; omega

/-! ## The result arrays, and the run -/

theorem hidden_final (c : Dev nD) : (book m 0 c).arrAt 6 cfg0.N = hiddenArr m c :=
  (book m 0 c).arrAt_eq_of_cover 6 (hiddenArr m c) (fun t _ => hidden_written m c t) hidden_covered
theorem cell_final (c : Dev nD) : (book m 0 c).arrAt 7 cfg0.N = cellArr m c :=
  (book m 0 c).arrAt_eq_of_cover 7 (cellArr m c) (fun t _ => cell_written m c t) cell_covered

/-- The kernel program's run, read: it terminates without a fault, the two results are the LSTM cell function of the
    arguments, and the arguments end as launched. -/
theorem run : θ_run defs (onTc (τ := τ) (main (F := Ideal))) ⟨m, fun _ => 0, ρ⟩ (fun r => ∀ c : Dev nD,
      r.2.mem ((c.tc : Thread nD τ).loc main_v16_0) = hiddenArr m c
      ∧ r.2.mem ((c.tc : Thread nD τ).loc main_v16_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 6).trans (hidden_final m c), ((h c).1 7).trans (cell_final m c),
      args_kept m (book m) (book_A m) h c⟩) (Region.run m ρ)

end Cert.KernelIdeal.Final

end
-- ==== Proof.RefValue.lean ====
/-
  The reference is the LSTM cell function.

  The reference joins the input and hidden rows into one row of 2048 features, the four gates' weight matrices into one
  2048 × 4096 matrix and their biases into one vector of 4096, multiplies once, adds the bias, cuts the 4096 columns into
  the four gates, and applies the cell's formulas with the logistic function spelt out (one over one plus the
  exponential of the negated argument). Gate `g`'s pre-activation at row `r`, unit `q` is entry `(r, 1024·g + q)` of
  the product plus entry `1024·g + q` of the joined bias: the sum over the 2048 joined features is the sum over the
  input features plus the sum over the hidden features, which is the specification's `pre`.
-/
import proofs.«173777_j85358180041592_1_alg».proof.Proof.Gen.ReferenceIdeal.Read
import proofs.«173777_j85358180041592_1_alg».proof.Proof.LstmSpec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.JoinFour Cert.Lstm

/-! ## A gate's pre-activation -/

/-- Entry `(r, 1024·0 + q)` of the reference's biased product is gate 0's pre-activation at `(r, q)`. -/
theorem ref_pre_0 (x0 x1 : Mat 8192 1024) (x3 : Mat 2048 1024) (x4 : Row 1024) (x5 : Mat 2048 1024) (x6 : Row 1024) (x7 : Mat 2048 1024) (x8 : Row 1024) (x9 : Mat 2048 1024) (x10 : Row 1024) (r : Fin 8192) (q : Fin 1024) :
    val_main_v6 (F := Ideal) x0 x1 x3 x4 x5 x6 x7 x8 x9 x10 (ix2 r (lane 0 (by decide) q)) = pre x0 x1 x3 x4 r q := by
  rw [val_main_v6_apply, val_main_v3_apply, val_main_v5_apply, val_main_v4_apply]
  have el : ∀ k : Fin 2048, lidx_main_v3 (ix2 r (lane 0 (by decide) q)) k = ix2 r k := fun k =>
    funext fun a => Fin.ext (by match a with | ⟨0, _⟩ => rfl | ⟨1, _⟩ => rfl)
  have er : ∀ k : Fin 2048, ridx_main_v3 (ix2 r (lane 0 (by decide) q)) k = ix2 k (lane 0 (by decide) q) := fun k =>
    funext fun a => Fin.ext (by match a with | ⟨0, _⟩ => rfl | ⟨1, _⟩ => rfl)
  have eb : idx_main_v4 (idx_main_v5 (ix2 r (lane 0 (by decide) q))) = ix1 (lane 0 (by decide) q) :=
    funext fun a => Fin.ext (by match a with | ⟨0, _⟩ => rfl)
  simp only [el, er, eb]
  rw [sum_halves]
  unfold val_main_v0 val_main_v1 val_main_v2 pre gatePre
  simp only [join2_cols_left, join2_cols_right, join4_cols_0, join4_vec_0]
  rfl

/-- Entry `(r, 1024·1 + q)` of the reference's biased product is gate 1's pre-activation at `(r, q)`. -/
theorem ref_pre_1 (x0 x1 : Mat 8192 1024) (x3 : Mat 2048 1024) (x4 : Row 1024) (x5 : Mat 2048 1024) (x6 : Row 1024) (x7 : Mat 2048 1024) (x8 : Row 1024) (x9 : Mat 2048 1024) (x10 : Row 1024) (r : Fin 8192) (q : Fin 1024) :
    val_main_v6 (F := Ideal) x0 x1 x3 x4 x5 x6 x7 x8 x9 x10 (ix2 r (lane 1 (by decide) q)) = pre x0 x1 x5 x6 r q := by
  rw [val_main_v6_apply, val_main_v3_apply, val_main_v5_apply, val_main_v4_apply]
  have el : ∀ k : Fin 2048, lidx_main_v3 (ix2 r (lane 1 (by decide) q)) k = ix2 r k := fun k =>
    funext fun a => Fin.ext (by match a with | ⟨0, _⟩ => rfl | ⟨1, _⟩ => rfl)
  have er : ∀ k : Fin 2048, ridx_main_v3 (ix2 r (lane 1 (by decide) q)) k = ix2 k (lane 1 (by decide) q) := fun k =>
    funext fun a => Fin.ext (by match a with | ⟨0, _⟩ => rfl | ⟨1, _⟩ => rfl)
  have eb : idx_main_v4 (idx_main_v5 (ix2 r (lane 1 (by decide) q))) = ix1 (lane 1 (by decide) q) :=
    funext fun a => Fin.ext (by match a with | ⟨0, _⟩ => rfl)
  simp only [el, er, eb]
  rw [sum_halves]
  unfold val_main_v0 val_main_v1 val_main_v2 pre gatePre
  simp only [join2_cols_left, join2_cols_right, join4_cols_1, join4_vec_1]
  rfl

/-- Entry `(r, 1024·2 + q)` of the reference's biased product is gate 2's pre-activation at `(r, q)`. -/
theorem ref_pre_2 (x0 x1 : Mat 8192 1024) (x3 : Mat 2048 1024) (x4 : Row 1024) (x5 : Mat 2048 1024) (x6 : Row 1024) (x7 : Mat 2048 1024) (x8 : Row 1024) (x9 : Mat 2048 1024) (x10 : Row 1024) (r : Fin 8192) (q : Fin 1024) :
    val_main_v6 (F := Ideal) x0 x1 x3 x4 x5 x6 x7 x8 x9 x10 (ix2 r (lane 2 (by decide) q)) = pre x0 x1 x7 x8 r q := by
  rw [val_main_v6_apply, val_main_v3_apply, val_main_v5_apply, val_main_v4_apply]
  have el : ∀ k : Fin 2048, lidx_main_v3 (ix2 r (lane 2 (by decide) q)) k = ix2 r k := fun k =>
    funext fun a => Fin.ext (by match a with | ⟨0, _⟩ => rfl | ⟨1, _⟩ => rfl)
  have er : ∀ k : Fin 2048, ridx_main_v3 (ix2 r (lane 2 (by decide) q)) k = ix2 k (lane 2 (by decide) q) := fun k =>
    funext fun a => Fin.ext (by match a with | ⟨0, _⟩ => rfl | ⟨1, _⟩ => rfl)
  have eb : idx_main_v4 (idx_main_v5 (ix2 r (lane 2 (by decide) q))) = ix1 (lane 2 (by decide) q) :=
    funext fun a => Fin.ext (by match a with | ⟨0, _⟩ => rfl)
  simp only [el, er, eb]
  rw [sum_halves]
  unfold val_main_v0 val_main_v1 val_main_v2 pre gatePre
  simp only [join2_cols_left, join2_cols_right, join4_cols_2, join4_vec_2]
  rfl

/-- Entry `(r, 1024·3 + q)` of the reference's biased product is gate 3's pre-activation at `(r, q)`. -/
theorem ref_pre_3 (x0 x1 : Mat 8192 1024) (x3 : Mat 2048 1024) (x4 : Row 1024) (x5 : Mat 2048 1024) (x6 : Row 1024) (x7 : Mat 2048 1024) (x8 : Row 1024) (x9 : Mat 2048 1024) (x10 : Row 1024) (r : Fin 8192) (q : Fin 1024) :
    val_main_v6 (F := Ideal) x0 x1 x3 x4 x5 x6 x7 x8 x9 x10 (ix2 r (lane 3 (by decide) q)) = pre x0 x1 x9 x10 r q := by
  rw [val_main_v6_apply, val_main_v3_apply, val_main_v5_apply, val_main_v4_apply]
  have el : ∀ k : Fin 2048, lidx_main_v3 (ix2 r (lane 3 (by decide) q)) k = ix2 r k := fun k =>
    funext fun a => Fin.ext (by match a with | ⟨0, _⟩ => rfl | ⟨1, _⟩ => rfl)
  have er : ∀ k : Fin 2048, ridx_main_v3 (ix2 r (lane 3 (by decide) q)) k = ix2 k (lane 3 (by decide) q) := fun k =>
    funext fun a => Fin.ext (by match a with | ⟨0, _⟩ => rfl | ⟨1, _⟩ => rfl)
  have eb : idx_main_v4 (idx_main_v5 (ix2 r (lane 3 (by decide) q))) = ix1 (lane 3 (by decide) q) :=
    funext fun a => Fin.ext (by match a with | ⟨0, _⟩ => rfl)
  simp only [el, er, eb]
  rw [sum_halves]
  unfold val_main_v0 val_main_v1 val_main_v2 pre gatePre
  simp only [join2_cols_left, join2_cols_right, join4_cols_3, join4_vec_3]
  rfl

/-! ## The two results -/

/-- The reference's new cell state is the specification's. -/
theorem ref_cell (x0 x1 x2 : Mat 8192 1024) (x3 : Mat 2048 1024) (x4 : Row 1024) (x5 : Mat 2048 1024) (x6 : Row 1024) (x7 : Mat 2048 1024) (x8 : Row 1024) (x9 : Mat 2048 1024) (x10 : Row 1024) :
    val_main_v32 (F := Ideal) x0 x1 x2 x3 x4 x5 x6 x7 x8 x9 x10 = newCell x0 x1 x2 x3 x4 x5 x6 x9 x10 := by
  funext i
  obtain ⟨r, q, rfl⟩ : ∃ (r : Fin 8192) (q : Fin 1024), i = ix2 r q := ⟨i 0, i 1, eq_ix2 i⟩
  have e7 : idx_main_v7 (ix2 r q) = ix2 r (lane 0 (by decide) q) :=
    funext fun a => Fin.ext (by match a with | ⟨0, _⟩ => rfl | ⟨1, _⟩ => (show q.val = 1024 * 0 + q.val; omega))
  have e8 : idx_main_v8 (ix2 r q) = ix2 r (lane 1 (by decide) q) :=
    funext fun a => Fin.ext (by match a with | ⟨0, _⟩ => rfl | ⟨1, _⟩ => (show 1024 + q.val = 1024 * 1 + q.val; omega))
  have e10 : idx_main_v10 (ix2 r q) = ix2 r (lane 3 (by decide) q) :=
    funext fun a => Fin.ext (by match a with | ⟨0, _⟩ => rfl | ⟨1, _⟩ => (show 3072 + q.val = 1024 * 3 + q.val; omega))
  rw [val_main_v32_apply, val_main_v30_apply, val_main_v31_apply, val_main_v22_apply, val_main_v16_apply, val_main_v29_apply,
    val_main_v21_apply, val_main_cst_2_apply, val_main_v20_apply, val_main_v19_apply, val_main_cst_1_apply, val_main_v18_apply,
    val_main_v17_apply, val_main_v8_apply, val_main_v15_apply, val_main_cst_0_apply, val_main_v14_apply, val_main_v13_apply,
    val_main_cst_apply, val_main_v12_apply, val_main_v11_apply, val_main_v7_apply, val_main_v10_apply,
    e7, e8, e10, ref_pre_0, ref_pre_1, ref_pre_3]
  simp only [Ideal.hostDivf_def, Ideal.ofBits_def, Ideal.addf_def, Ideal.hostUnary_exp_def, Ideal.hostNegf_def, Ideal.negf_def,
    Ideal.mulf_def, Ideal.hostUnary_tanh_def, logistic_spelt]
  rfl

/-- The reference's new hidden state is the specification's. -/
theorem ref_hidden (x0 x1 x2 : Mat 8192 1024) (x3 : Mat 2048 1024) (x4 : Row 1024) (x5 : Mat 2048 1024) (x6 : Row 1024) (x7 : Mat 2048 1024) (x8 : Row 1024) (x9 : Mat 2048 1024) (x10 : Row 1024) :
    val_main_v34 (F := Ideal) x0 x1 x2 x3 x4 x5 x6 x7 x8 x9 x10 = newHidden x0 x1 x2 x3 x4 x5 x6 x7 x8 x9 x10 := by
  funext i
  obtain ⟨r, q, rfl⟩ : ∃ (r : Fin 8192) (q : Fin 1024), i = ix2 r q := ⟨i 0, i 1, eq_ix2 i⟩
  have e9 : idx_main_v9 (ix2 r q) = ix2 r (lane 2 (by decide) q) :=
    funext fun a => Fin.ext (by match a with | ⟨0, _⟩ => rfl | ⟨1, _⟩ => (show 2048 + q.val = 1024 * 2 + q.val; omega))
  rw [val_main_v34_apply, val_main_v33_apply, val_main_v28_apply, val_main_v27_apply, val_main_cst_4_apply, val_main_v26_apply,
    val_main_v25_apply, val_main_cst_3_apply, val_main_v24_apply, val_main_v23_apply, val_main_v9_apply, e9, ref_pre_2, ref_cell]
  simp only [Ideal.hostDivf_def, Ideal.ofBits_def, Ideal.addf_def, Ideal.hostUnary_exp_def, Ideal.hostNegf_def, Ideal.negf_def,
    Ideal.mulf_def, Ideal.hostUnary_tanh_def, logistic_spelt]
  rfl

end Cert.ReferenceIdeal.RefValue

end
-- ==== Proof.lean ====
/-
  An LSTM cell: the Pallas kernel program and its jnp reference compute one function on the extended reals.

  For batch row `r` and hidden unit `q`, with gate `G`'s pre-activation
  `z_G = Σ_k x(r,k)·W_G(k,q) + Σ_k h(r,k)·W_G(1024+k,q) + b_G(q)`, both programs return
  `c' = σ(z_f)·c + σ(z_i)·tanh(z_g)` and `h' = σ(z_o)·tanh(c')` (`Proof/LstmSpec.lean`).

  The kernel program cuts each gate's weights into the input features' rows and the hidden features' rows on the host,
  lays the four gates side by side, and calls the kernel once per tile of 256 batch rows; the body forms the two sums by
  two matrix products and applies the cell's formulas (`Proof/BodyValue.lean`); its tiles are rows of the arguments
  (`Proof/TileValue.lean`) and the 32 tiles written back make up the result arrays (`Proof/KernelValue.lean`). The
  reference forms ONE sum over the 2048 joined features and spells the logistic function out; a sum over 2048 terms is
  the sum over its halves, and the spelt-out logistic function is the logistic function (`Proof/RefValue.lean`). Only
  commutativity and associativity of addition are used, so the equality holds at infinite entries too and the
  finiteness precondition is never opened.

  The three programs run to their ends without a fault and leave their arguments as launched: the kernel program by the
  run of its one call (`Proof/RegionBits.lean` at the word level, `Proof/RegionIdeal.lean` on the extended reals), the
  reference by its run read back. The idealization rewrote nothing, so there is nothing to preserve.
-/
import proofs.«173777_j85358180041592_1_alg».proof.Defs
import proofs.«173777_j85358180041592_1_alg».proof.Proof.Gen.Kernel
import proofs.«173777_j85358180041592_1_alg».proof.Proof.Gen.Kernel.Skeleton
import proofs.«173777_j85358180041592_1_alg».proof.Proof.Gen.Kernel.Launch
import proofs.«173777_j85358180041592_1_alg».proof.Proof.Gen.Kernel.Points
import proofs.«173777_j85358180041592_1_alg».proof.Proof.Gen.KernelIdeal
import proofs.«173777_j85358180041592_1_alg».proof.Proof.Gen.KernelIdeal.Skeleton
import proofs.«173777_j85358180041592_1_alg».proof.Proof.Gen.KernelIdeal.Launch
import proofs.«173777_j85358180041592_1_alg».proof.Proof.Gen.KernelIdeal.Points
import proofs.«173777_j85358180041592_1_alg».proof.Proof.Gen.ReferenceIdeal
import proofs.«173777_j85358180041592_1_alg».proof.Proof.Gen.Pre_finite_inputs
import proofs.«173777_j85358180041592_1_alg».proof.Proof.Gen.ReferenceIdeal.Run
import proofs.«173777_j85358180041592_1_alg».proof.Proof.Gen.ReferenceIdeal.Read
import proofs.«173777_j85358180041592_1_alg».proof.Proof.RegionBits
import proofs.«173777_j85358180041592_1_alg».proof.Proof.KernelValue
import proofs.«173777_j85358180041592_1_alg».proof.Proof.RefValue
import Idealize.ShloMosaic.Adequacy
import Idealize.ShloMosaic.Init

noncomputable section

namespace Cert.Proof

open Idealize.ShloMosaic Idealize.SL.Sem

/-- The kernel program, at the word level, runs to its end and keeps its arguments. -/
theorem frame_kernel : Cert.frame_Kernel := fun m ρ _ => Cert.Kernel.Region.args_unchanged (F := Bits) m ρ

/-- The same on the extended reals. -/
theorem frame_kernel_ideal : Cert.frame_KernelIdeal := fun m ρ _ => Cert.KernelIdeal.Region.args_unchanged (F := Ideal) m ρ

/-- The reference runs to its end and keeps its arguments: its run read back, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, both programs end with the LSTM cell function of the arguments in their two
    results: the new hidden state first, the new cell state second. -/
theorem algebraic : Cert.algebraic_KernelIdeal_ReferenceIdeal := by
  intro m ρ m' ρ' _ hagree
  refine ⟨fun c => Cert.KernelIdeal.Final.hiddenArr m c, fun c => Cert.KernelIdeal.Final.cellArr m c,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v34_eq m' c).trans
      ((Cert.ReferenceIdeal.RefValue.ref_hidden (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_))
    obtain ⟨a0, a1, a2, a3, a4, a5, a6, a7, a8, a9, a10⟩ := hagree c
    rw [a0, a1, a2, a3, a4, a5, a6, a7, a8, a9, a10]
    rfl
  · refine (h c).2.1.trans ((Cert.ReferenceIdeal.Read.val_main_v32_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans
      ((Cert.ReferenceIdeal.RefValue.ref_cell (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_))
    obtain ⟨a0, a1, a2, a3, a4, a5, a6, a7, a8, a9, a10⟩ := hagree c
    rw [a0, a1, a2, a3, a4, a5, a6, a9, a10]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
